-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S640x512 : S_.BroadcastsInDim S640x512 (![] : Fin 0 → Fin S640x512.rank)
  reducesTo_S640x512_S_d0_1 : S640x512.ReducesTo [0, 1] S_
  bcast_S_S640 : S_.BroadcastsInDim S640 (![] : Fin 0 → Fin S640.rank)
  reducesTo_S640_S_d0 : S640.ReducesTo [0] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S640x512 .f32) (main_arg5 : FVec F S640 .f32) (main_arg6 : FVec F S1024x640 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x512 .f32 := Host.absf main_arg4
  let main_cst_6 : FVec F S_ .f32 := constant S_ .f32 0x7F800000#32
  let main_v20 : FVec F S640x512 .f32 := broadcastInDim S640x512 ![] bcast_S_S640x512 main_cst_6
  let main_v21 : IVec S640x512 1 := cmpf .olt main_v19 main_v20
  let main_c_7 : IVec S_ 1 := constantI S_ 1 1#1
  let main_v22 : IVec S_ 1 := (fun x v => Host.reduce IntOp.andi x v reducesTo_S640x512_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S1024x640 .f32 := Host.absf main_arg6
  let main_cst_10 : FVec F S_ .f32 := constant S_ .f32 0x7F800000#32
  let main_v30 : FVec F S1024x640 .f32 := broadcastInDim S1024x640 ![] bcast_S_S1024x640 main_cst_10
  let main_v31 : IVec S1024x640 1 := cmpf .olt main_v29 main_v30
  let main_c_11 : IVec S_ 1 := constantI S_ 1 1#1
  let main_v32 : IVec S_ 1 := (fun x v => Host.reduce IntOp.andi x v reducesTo_S1024x640_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x512 .f32) (main_arg2 : FVec F S640x512 .f32) (main_arg3 : FVec F S640 .f32) (main_arg4 : FVec F S640x512 .f32) (main_arg5 : FVec F S640 .f32) (main_arg6 : FVec F S1024x640 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S640x512 .f32 := Host.absf main_arg2
  let main_cst_2 : FVec F S_ .f32 := constant S_ .f32 0x7F800000#32
  let main_v10 : FVec F S640x512 .f32 := broadcastInDim S640x512 ![] bcast_S_S640x512 main_cst_2
  let main_v11 : IVec S640x512 1 := cmpf .olt main_v9 main_v10
  let main_c_3 : IVec S_ 1 := constantI S_ 1 1#1
  let main_v12 : IVec S_ 1 := (fun x v => Host.reduce IntOp.andi x v reducesTo_S640x512_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x512 : Shape := ⟨3, ![4, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S512x640 : Shape := ⟨2, ![512, 640]⟩
abbrev S640x1024 : Shape := ⟨2, ![640, 1024]⟩
abbrev S4x256x640 : Shape := ⟨3, ![4, 256, 640]⟩
abbrev S1x256x512 : Shape := ⟨3, ![1, 256, 512]⟩
abbrev S1x256x640 : Shape := ⟨3, ![1, 256, 640]⟩
abbrev S256x512 : Shape := ⟨2, ![256, 512]⟩
abbrev S256x640 : Shape := ⟨2, ![256, 640]⟩
abbrev S1x640 : Shape := ⟨2, ![1, 640]⟩
abbrev S4x64x640 : Shape := ⟨3, ![4, 64, 640]⟩
abbrev S1x64x512 : Shape := ⟨3, ![1, 64, 512]⟩
abbrev S1x64x640 : Shape := ⟨3, ![1, 64, 640]⟩
abbrev S64x512 : Shape := ⟨2, ![64, 512]⟩
abbrev S64x640 : Shape := ⟨2, ![64, 640]⟩
abbrev S4x256x64x1024 : Shape := ⟨4, ![4, 256, 64, 1024]⟩
abbrev S1x32x640 : Shape := ⟨3, ![1, 32, 640]⟩
abbrev S1x32x64x1024 : Shape := ⟨4, ![1, 32, 64, 1024]⟩
abbrev S2048x640 : Shape := ⟨2, ![2048, 640]⟩
abbrev S1x8x640 : Shape := ⟨3, ![1, 8, 640]⟩
abbrev S8x640 : Shape := ⟨2, ![8, 640]⟩
abbrev S8x1x640 : Shape := ⟨3, ![8, 1, 640]⟩
abbrev S8x64x640 : Shape := ⟨3, ![8, 64, 640]⟩
abbrev S2048x1024 : Shape := ⟨2, ![2048, 1024]⟩
abbrev S1x1024 : Shape := ⟨2, ![1, 1024]⟩
abbrev S32x64x1024 : Shape := ⟨3, ![32, 64, 1024]⟩

abbrev nBuf : Space → Nat
  | .hbm => 17
  | .vmem => 21
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S640x512, .f32⟩
  | .hbm, ⟨3, _⟩ => ⟨S640, .f32⟩
  | .hbm, ⟨4, _⟩ => ⟨S640x512, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S512x640, .f32⟩
  | .hbm, ⟨9, _⟩ => ⟨S512x640, .bf16⟩
  | .hbm, ⟨10, _⟩ => ⟨S512x640, .f32⟩
  | .hbm, ⟨11, _⟩ => ⟨S512x640, .bf16⟩
  | .hbm, ⟨12, _⟩ => ⟨S640x1024, .f32⟩
  | .hbm, ⟨13, _⟩ => ⟨S640x1024, .bf16⟩
  | .hbm, ⟨14, _⟩ => ⟨S4x256x640, .f32⟩
  | .hbm, ⟨15, _⟩ => ⟨S4x64x640, .f32⟩
  | .hbm, ⟨16, _⟩ => ⟨S4x256x64x1024, .f32⟩
  | .local _ .vmem, ⟨0, _⟩ => ⟨S1x256x512, .f32⟩
  | .local _ .vmem, ⟨1, _⟩ => ⟨S1x256x512, .f32⟩
  | .local _ .vmem, ⟨2, _⟩ => ⟨S512x640, .bf16⟩
  | .local _ .vmem, ⟨3, _⟩ => ⟨S640, .f32⟩
  | .local _ .vmem, ⟨4, _⟩ => ⟨S1x256x640, .f32⟩
  | .local _ .vmem, ⟨5, _⟩ => ⟨S1x256x640, .f32⟩
  | .local _ .vmem, ⟨6, _⟩ => ⟨S1x64x512, .f32⟩
  | .local _ .vmem, ⟨7, _⟩ => ⟨S1x64x512, .f32⟩
  | .local _ .vmem, ⟨8, _⟩ => ⟨S512x640, .bf16⟩
  | .local _ .vmem, ⟨9, _⟩ => ⟨S640, .f32⟩
  | .local _ .vmem, ⟨10, _⟩ => ⟨S1x64x640, .f32⟩
  | .local _ .vmem, ⟨11, _⟩ => ⟨S1x64x640, .f32⟩
  | .local _ .vmem, ⟨12, _⟩ => ⟨S1x32x640, .f32⟩
  | .local _ .vmem, ⟨13, _⟩ => ⟨S1x32x640, .f32⟩
  | .local _ .vmem, ⟨14, _⟩ => ⟨S1x64x640, .f32⟩
  | .local _ .vmem, ⟨15, _⟩ => ⟨S1x64x640, .f32⟩
  | .local _ .vmem, ⟨16, _⟩ => ⟨S640x1024, .bf16⟩
  | .local _ .vmem, ⟨17, _⟩ => ⟨S1024, .f32⟩
  | .local _ .vmem, ⟨18, _⟩ => ⟨S1x32x64x1024, .f32⟩
  | .local _ .vmem, ⟨19, _⟩ => ⟨S1x32x64x1024, .f32⟩
  | .local _ .vmem, ⟨20, _⟩ => ⟨S2048x640, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x640 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x64x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def k2_off1 (c0_i32 : BitVec 32) : Fin 3 → Nat :=
  let c0_2 : Index := 0#32
  let c8_i32 : BitVec 32 := 8#32
  let v2 : BitVec 32 := Scalar.muli c0_i32 c8_i32
  let v3 : Index := Scalar.indexCast v2
  let c0_3 : Index := 0#32
  ![0, v3.toNat, 0]
def k2_off2 (c0_i32 : BitVec 32) : Fin 2 → Nat :=
  let c8_i32 : BitVec 32 := 8#32
  let v2 : BitVec 32 := Scalar.muli c0_i32 c8_i32
  let c64_i32 : BitVec 32 := 64#32
  let v14 : BitVec 32 := Scalar.muli v2 c64_i32
  let v15 : Index := Scalar.indexCast v14
  let c0_4 : Index := 0#32
  ![v15.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S640x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x32x64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S640x512_S512x640_1_0 : S640x512.Transposes [1, 0] S512x640
  bitsLt_bf16_f32 : FTy.bits .bf16 < FTy.bits .f32
  transposes_S1024x640_S640x1024_1_0 : S1024x640.Transposes [1, 0] S640x1024
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640_S640_0 : ∀ a, (![0] : Fin 1 → Nat) a + S640.size a ≤ S640.size a
  h_S640 : 0 < S640.numel
  shapeCasts_S640_S1x640 : S640.ShapeCasts S1x640
  broadcasts_S1x640_S256x640 : S1x640.Broadcasts S256x640
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  shapeCasts_S256x640_S1x256x640 : S256x640.ShapeCasts S1x256x640
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  broadcasts_S1x640_S64x640 : S1x640.Broadcasts S64x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S64x640_S1x64x640 : S64x640.ShapeCasts S1x64x640
  h_S1x8x640 : 0 < S1x8x640.numel
  shapeCasts_S1x8x640_S8x640 : S1x8x640.ShapeCasts S8x640
  shapeCasts_S8x640_S8x1x640 : S8x640.ShapeCasts S8x1x640
  broadcasts_S8x1x640_S8x64x640 : S8x1x640.Broadcasts S8x64x640
  broadcasts_S1x64x640_S8x64x640 : S1x64x640.Broadcasts S8x64x640
  shapeCasts_S8x64x640_S512x640 : S8x64x640.ShapeCasts S512x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S2048x640_S2048x640_0_0 : ∀ a, (![0, 0] : Fin 2 → Nat) a + S2048x640.size a ≤ S2048x640.size a
  h_S2048x640 : 0 < S2048x640.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S256x512_S512x640_S256x640_1_0_0_1_n_n_wf : DotDims.WF S256x512 S512x640 S256x640 [1] [0] [0] [1] [] []
  dot_S64x512_S512x640_S64x640_1_0_0_1_n_n_wf : DotDims.WF S64x512 S512x640 S64x640 [1] [0] [0] [1] [] []
  dot_S2048x640_S640x1024_S2048x1024_1_0_0_1_n_n_wf : DotDims.WF S2048x640 S640x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x512.size a
  hwx0_0 : ∀ i : grid0.Coords, EltTy.bits .f32 = 32 ∨ (Rect.block (s := S4x256x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .bf16 = 32 ∨ (Rect.block (s := S512x640) S512x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640.size a ≤ S640.size a
  hwx0_2 : ∀ i : grid0.Coords, EltTy.bits .f32 = 32 ∨ (Rect.block (s := S640) S640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x640.size a ≤ S4x256x640.size a
  hwx0_3 : ∀ i : grid0.Coords, EltTy.bits .f32 = 32 ∨ (Rect.block (s := S4x256x640) S1x256x640.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x512.size a ≤ S4x64x512.size a
  hwx1_0 : ∀ i : grid1.Coords, EltTy.bits .f32 = 32 ∨ (Rect.block (s := S4x64x512) S1x64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x640.size a ≤ S512x640.size a
  hwx1_1 : ∀ i : grid1.Coords, EltTy.bits .bf16 = 32 ∨ (Rect.block (s := S512x640) S512x640.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S640.size a ≤ S640.size a
  hwx1_2 : ∀ i : grid1.Coords, EltTy.bits .f32 = 32 ∨ (Rect.block (s := S640) S640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x640.size a ≤ S4x64x640.size a
  hwx1_3 : ∀ i : grid1.Coords, EltTy.bits .f32 = 32 ∨ (Rect.block (s := S4x64x640) S1x64x640.size (cc1_transform_3 i) (hinb1_3 i)).WholeWords (EltTy.packing .f32)
  hrank2 : 0 < grid2.rank
  k2_off1_inb : ∀ (r : Fin 4), ∀ a, (k2_off1 (BitVec.ofNat 32 r.val)) a + S1x8x640.size a ≤ S1x32x640.size a
  k2_off2_inb : ∀ (r : Fin 4), ∀ a, (k2_off2 (BitVec.ofNat 32 r.val)) a + S512x640.size a ≤ S2048x640.size a
  k2_off2_packedbf16 : ∀ (r : Fin 4), (Rect.unit (s := S2048x640) (k2_off2 (BitVec.ofNat 32 r.val)) S512x640.size (k2_off2_inb r)).PackedRows (EltTy.packing .bf16)
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x640.size a ≤ S4x256x640.size a
  hwx2_0 : ∀ i : grid2.Coords, EltTy.bits .f32 = 32 ∨ (Rect.block (s := S4x256x640) S1x32x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x640.size a ≤ S4x64x640.size a
  hwx2_1 : ∀ i : grid2.Coords, EltTy.bits .f32 = 32 ∨ (Rect.block (s := S4x64x640) S1x64x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640x1024.size a ≤ S640x1024.size a
  hwx2_2 : ∀ i : grid2.Coords, EltTy.bits .bf16 = 32 ∨ (Rect.block (s := S640x1024) S640x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x64x1024.size a ≤ S4x256x64x1024.size a
  hwx2_4 : ∀ i : grid2.Coords, EltTy.bits .f32 = 32 ∨ (Rect.block (s := S4x256x64x1024) S1x32x64x1024.size (cc2_transform_4 i) (hinb2_4 i)).WholeWords (EltTy.packing .f32)

variable [Facts₀]

def dot_S256x512_S512x640_S256x640_1_0_0_1_n_n : DotDims S256x512 S512x640 S256x640 where
  lhsContracting := [1]
  rhsContracting := [0]
  lhsNonContracting := [0]
  rhsNonContracting := [1]
  lhsBatch := []
  rhsBatch := []
  wf := dot_S256x512_S512x640_S256x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S2048x640_S640x1024_S2048x1024_1_0_0_1_n_n : DotDims S2048x640 S640x1024 S2048x1024 where
  lhsContracting := [1]
  rhsContracting := [0]
  lhsNonContracting := [0]
  rhsNonContracting := [1]
  lhsBatch := []
  rhsBatch := []
  wf := dot_S2048x640_S640x1024_S2048x1024_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1x32x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S640x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x32x64x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S4x256x640 : Shape := ⟨3, ![4, 256, 640]⟩
abbrev S1x1x640 : Shape := ⟨3, ![1, 1, 640]⟩
abbrev S4x64x640 : Shape := ⟨3, ![4, 64, 640]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S640x512, .f32⟩
  | .hbm, ⟨3, _⟩ => ⟨S640, .f32⟩
  | .hbm, ⟨4, _⟩ => ⟨S640x512, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S4x256x640, .f32⟩
  | .hbm, ⟨9, _⟩ => ⟨S1x1x640, .f32⟩
  | .hbm, ⟨10, _⟩ => ⟨S4x256x640, .f32⟩
  | .hbm, ⟨11, _⟩ => ⟨S4x256x640, .f32⟩
  | .hbm, ⟨12, _⟩ => ⟨S4x64x640, .f32⟩
  | .hbm, ⟨13, _⟩ => ⟨S1x1x640, .f32⟩
  | .hbm, ⟨14, _⟩ => ⟨S4x64x640, .f32⟩
  | .hbm, ⟨15, _⟩ => ⟨S4x64x640, .f32⟩
  | .hbm, ⟨16, _⟩ => ⟨S4x256x1x640, .f32⟩
  | .hbm, ⟨17, _⟩ => ⟨S4x1x64x640, .f32⟩
  | .hbm, ⟨18, _⟩ => ⟨S4x256x64x640, .f32⟩
  | .hbm, ⟨19, _⟩ => ⟨S4x256x64x640, .f32⟩
  | .hbm, ⟨20, _⟩ => ⟨S4x256x64x640, .f32⟩
  | .hbm, ⟨21, _⟩ => ⟨S4x256x64x640, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S4x256x640_0_1_2 : S1x1x640.BroadcastsInDim S4x256x640 (![0, 1, 2] : Fin 3 → Fin S4x256x640.rank)
  bcast_S1x1x640_S4x64x640_0_1_2 : S1x1x640.BroadcastsInDim S4x64x640 (![0, 1, 2] : Fin 3 → Fin S4x64x640.rank)
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x512_S640x512_S4x256x640_2_1_01_0_n_n_wf : DotDims.WF S4x256x512 S640x512 S4x256x640 [2] [1] [0, 1] [0] [] []
  dot_S4x64x512_S640x512_S4x64x640_2_1_01_0_n_n_wf : DotDims.WF S4x64x512 S640x512 S4x64x640 [2] [1] [0, 1] [0] [] []
  dot_S4x256x64x640_S1024x640_S4x256x64x1024_3_1_012_0_n_n_wf : DotDims.WF S4x256x64x640 S1024x640 S4x256x64x1024 [3] [1] [0, 1, 2] [0] [] []

variable [Facts₀]

def dot_S4x256x512_S640x512_S4x256x640_2_1_01_0_n_n : DotDims S4x256x512 S640x512 S4x256x640 where
  lhsContracting := [2]
  rhsContracting := [1]
  lhsNonContracting := [0, 1]
  rhsNonContracting := [0]
  lhsBatch := []
  rhsBatch := []
  wf := dot_S4x256x512_S640x512_S4x256x640_2_1_01_0_n_n_wf
def dot_S4x64x512_S640x512_S4x64x640_2_1_01_0_n_n : DotDims S4x64x512 S640x512 S4x64x640 where
  lhsContracting := [2]
  rhsContracting := [1]
  lhsNonContracting := [0, 1]
  rhsNonContracting := [0]
  lhsBatch := []
  rhsBatch := []
  wf := dot_S4x64x512_S640x512_S4x64x640_2_1_01_0_n_n_wf
def dot_S4x256x64x640_S1024x640_S4x256x64x1024_3_1_012_0_n_n : DotDims S4x256x64x640 S1024x640 S4x256x64x1024 where
  lhsContracting := [3]
  rhsContracting := [1]
  lhsNonContracting := [0, 1, 2]
  rhsNonContracting := [0]
  lhsBatch := []
  rhsBatch := []
  wf := dot_S4x256x64x640_S1024x640_S4x256x64x1024_3_1_012_0_n_n_wf

class Facts : Prop extends Facts₀ where

variable [Facts]
-- ==== Proof.RunValue.lean ====
/-
  The whole program's run, with the result array named.

  The program is a stretch of host operations (three transposes, each followed by a narrowing that is the identity on
  exact values) and then three kernel launches, each reading arrays the earlier segments left. Its contents at the end
  are a fold through these segments from the launch memory: after the host stretch, then after each launch, where a
  launch leaves in each of its arrays what its grid points wrote back and leaves every other array alone. Every weakly
  fair execution terminates without a fault with every array that outlives the launches at the end of that fold: the
  eight arguments as launched, and the result array at the fold's value there, which the rest of the proof reads.
-/
import proofs.«125526_j83863531421968_2_alg».proof.Proof.Gen.KernelIdeal.Frame

set_option maxRecDepth 16384

noncomputable section

namespace Cert.Joiner.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with the result array at the
    end of the fold of the segments and the eight arguments as launched. -/
theorem run_named : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Joiner.Run

end
-- ==== Proof.Spec.lean ====
/-
  The joiner as one function of its eight argument arrays, on the extended reals.

  Two affine projections into a joint space of width 640,
    e[b,t,j] = Σ_d enc[b,t,d] · enc_w[j,d] + enc_b[j]      (d < 512),
    p[b,u,j] = Σ_d pred[b,u,d] · pred_w[j,d] + pred_b[j],
  then, for every pair (t,u) of a batch entry b, the hyperbolic tangent of their sum, projected to the vocabulary:
    logits[b,t,u,v] = Σ_j tanh (e[b,t,j] + p[b,u,j]) · out_w[v,j] + out_b[v]      (j < 640).
  Both programs compute exactly these sums of products, with the factors in this order; they differ only in where the
  weights are transposed, in how the (t,u) pairs are tiled, and in the order the terms are added, none of which an exact
  sum sees. Every index is built from coordinates of literal extents.
-/
import Idealize.ShloMosaic.PureOps.Ideal
import Idealize.ShloMosaic.Lib.ValueIdx

noncomputable section

namespace Cert.Joiner

open Idealize.ShloMosaic Idealize.ShloMosaic.ValueIdx

/-- One entry of a projection against weights stored row per output feature: Σ_d x[b,s,d] · w[j,d] + bias[j]. -/
def projAt {B S : ℕ} (x : (⟨3, ![B, S, 512]⟩ : Shape).Idx → EReal) (w : (⟨2, ![640, 512]⟩ : Shape).Idx → EReal)
    (bias : (⟨1, ![640]⟩ : Shape).Idx → EReal) (b : Fin B) (s : Fin S) (j : Fin 640) : EReal :=
  (∑ d : Fin 512, x (ix3 b s d) * w (ix2 j d)) + bias (ix1 j)

/-- The same entry against the transposed weights, column per output feature: Σ_d x[b,s,d] · wT[d,j] + bias[j]. -/
def projTAt {B S : ℕ} (x : (⟨3, ![B, S, 512]⟩ : Shape).Idx → EReal) (wT : (⟨2, ![512, 640]⟩ : Shape).Idx → EReal)
    (bias : (⟨1, ![640]⟩ : Shape).Idx → EReal) (b : Fin B) (s : Fin S) (j : Fin 640) : EReal :=
  (∑ d : Fin 512, x (ix3 b s d) * wT (ix2 d j)) + bias (ix1 j)

/-- The encoder's projection e : [4, 256, 640]. -/
def encProj (x : (⟨3, ![4, 256, 512]⟩ : Shape).Idx → EReal) (w : (⟨2, ![640, 512]⟩ : Shape).Idx → EReal)
    (bias : (⟨1, ![640]⟩ : Shape).Idx → EReal) : (⟨3, ![4, 256, 640]⟩ : Shape).Idx → EReal :=
  fun i => projAt x w bias (i 0) (i 1) (i 2)

/-- The predictor's projection p : [4, 64, 640]. -/
def predProj (x : (⟨3, ![4, 64, 512]⟩ : Shape).Idx → EReal) (w : (⟨2, ![640, 512]⟩ : Shape).Idx → EReal)
    (bias : (⟨1, ![640]⟩ : Shape).Idx → EReal) : (⟨3, ![4, 64, 640]⟩ : Shape).Idx → EReal :=
  fun i => projAt x w bias (i 0) (i 1) (i 2)

/-- The encoder's projection stated against transposed weights. -/
def encProjT (x : (⟨3, ![4, 256, 512]⟩ : Shape).Idx → EReal) (wT : (⟨2, ![512, 640]⟩ : Shape).Idx → EReal)
    (bias : (⟨1, ![640]⟩ : Shape).Idx → EReal) : (⟨3, ![4, 256, 640]⟩ : Shape).Idx → EReal :=
  fun i => projTAt x wT bias (i 0) (i 1) (i 2)

/-- The predictor's projection stated against transposed weights. -/
def predProjT (x : (⟨3, ![4, 64, 512]⟩ : Shape).Idx → EReal) (wT : (⟨2, ![512, 640]⟩ : Shape).Idx → EReal)
    (bias : (⟨1, ![640]⟩ : Shape).Idx → EReal) : (⟨3, ![4, 64, 640]⟩ : Shape).Idx → EReal :=
  fun i => projTAt x wT bias (i 0) (i 1) (i 2)

/-- One logit: Σ_j tanh (e[b,t,j] + p[b,u,j]) · w[v,j] + bias[v]. -/
def joinAt (e : (⟨3, ![4, 256, 640]⟩ : Shape).Idx → EReal) (p : (⟨3, ![4, 64, 640]⟩ : Shape).Idx → EReal)
    (w : (⟨2, ![1024, 640]⟩ : Shape).Idx → EReal) (bias : (⟨1, ![1024]⟩ : Shape).Idx → EReal)
    (b : Fin 4) (t : Fin 256) (u : Fin 64) (v : Fin 1024) : EReal :=
  (∑ j : Fin 640, Ideal.tanh (e (ix3 b t j) + p (ix3 b u j)) * w (ix2 v j)) + bias (ix1 v)

/-- The same logit against the transposed vocabulary weights: Σ_j tanh (e[b,t,j] + p[b,u,j]) · wT[j,v] + bias[v]. -/
def joinTAt (e : (⟨3, ![4, 256, 640]⟩ : Shape).Idx → EReal) (p : (⟨3, ![4, 64, 640]⟩ : Shape).Idx → EReal)
    (wT : (⟨2, ![640, 1024]⟩ : Shape).Idx → EReal) (bias : (⟨1, ![1024]⟩ : Shape).Idx → EReal)
    (b : Fin 4) (t : Fin 256) (u : Fin 64) (v : Fin 1024) : EReal :=
  (∑ j : Fin 640, Ideal.tanh (e (ix3 b t j) + p (ix3 b u j)) * wT (ix2 j v)) + bias (ix1 v)

/-- The joint network's output on given projections. -/
def join (e : (⟨3, ![4, 256, 640]⟩ : Shape).Idx → EReal) (p : (⟨3, ![4, 64, 640]⟩ : Shape).Idx → EReal)
    (w : (⟨2, ![1024, 640]⟩ : Shape).Idx → EReal) (bias : (⟨1, ![1024]⟩ : Shape).Idx → EReal) :
    (⟨4, ![4, 256, 64, 1024]⟩ : Shape).Idx → EReal :=
  fun i => joinAt e p w bias (i 0) (i 1) (i 2) (i 3)

/-- The joint network's output on given projections, against transposed vocabulary weights. -/
def joinT (e : (⟨3, ![4, 256, 640]⟩ : Shape).Idx → EReal) (p : (⟨3, ![4, 64, 640]⟩ : Shape).Idx → EReal)
    (wT : (⟨2, ![640, 1024]⟩ : Shape).Idx → EReal) (bias : (⟨1, ![1024]⟩ : Shape).Idx → EReal) :
    (⟨4, ![4, 256, 64, 1024]⟩ : Shape).Idx → EReal :=
  fun i => joinTAt e p wT bias (i 0) (i 1) (i 2) (i 3)

/-- The whole result as a function of the eight arguments. -/
def logits (enc : (⟨3, ![4, 256, 512]⟩ : Shape).Idx → EReal) (pred : (⟨3, ![4, 64, 512]⟩ : Shape).Idx → EReal)
    (enc_w : (⟨2, ![640, 512]⟩ : Shape).Idx → EReal) (enc_b : (⟨1, ![640]⟩ : Shape).Idx → EReal)
    (pred_w : (⟨2, ![640, 512]⟩ : Shape).Idx → EReal) (pred_b : (⟨1, ![640]⟩ : Shape).Idx → EReal)
    (out_w : (⟨2, ![1024, 640]⟩ : Shape).Idx → EReal) (out_b : (⟨1, ![1024]⟩ : Shape).Idx → EReal) :
    (⟨4, ![4, 256, 64, 1024]⟩ : Shape).Idx → EReal :=
  join (encProj enc enc_w enc_b) (predProj pred pred_w pred_b) out_w out_b

/-- The transpose of an [n, m] array: entry (i, j) of the result is entry (j, i) of the source. -/
def tr {n m : ℕ} (w : (⟨2, ![n, m]⟩ : Shape).Idx → EReal) : (⟨2, ![m, n]⟩ : Shape).Idx → EReal :=
  fun i => w (ix2 (i 1) (i 0))

theorem tr_ix2 {n m : ℕ} (w : (⟨2, ![n, m]⟩ : Shape).Idx → EReal) (a : Fin m) (b : Fin n) : tr w (ix2 a b) = w (ix2 b a) := rfl

/-- Against the transpose of the weights the transposed form of a projection is the projection. -/
theorem encProjT_tr (x : (⟨3, ![4, 256, 512]⟩ : Shape).Idx → EReal) (w : (⟨2, ![640, 512]⟩ : Shape).Idx → EReal)
    (bias : (⟨1, ![640]⟩ : Shape).Idx → EReal) : encProjT x (tr w) bias = encProj x w bias := rfl

theorem predProjT_tr (x : (⟨3, ![4, 64, 512]⟩ : Shape).Idx → EReal) (w : (⟨2, ![640, 512]⟩ : Shape).Idx → EReal)
    (bias : (⟨1, ![640]⟩ : Shape).Idx → EReal) : predProjT x (tr w) bias = predProj x w bias := rfl

theorem joinT_tr (e : (⟨3, ![4, 256, 640]⟩ : Shape).Idx → EReal) (p : (⟨3, ![4, 64, 640]⟩ : Shape).Idx → EReal)
    (w : (⟨2, ![1024, 640]⟩ : Shape).Idx → EReal) (bias : (⟨1, ![1024]⟩ : Shape).Idx → EReal) :
    joinT e p (tr w) bias = join e p w bias := rfl

end Cert.Joiner

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.ProjValue0.lean ====
/-
  The encoder's projection as the first region leaves it.

  The region walks a grid of four points, one per batch entry b. At point b it holds the block x[b, :, :] of the
  input (256 rows of 512 features), the whole transposed weight matrix wT (512 by 640) and the whole bias (640
  entries), and writes the block out[b, :, :] (256 rows of 640 features). Entry (s, j) of what it writes is the
  inner product of row s of the input block with column j of wT, plus bias j:
      out[b, s, j] = Σ_{d < 512} x[b, s, d] · wT[d, j] + bias[j].
  So an output entry depends on one row of the input (the one with its own batch entry and row number), on one column
  of the weights and on one bias entry. The four output blocks are the four slabs b = 0, 1, 2, 3 of the output array,
  so together they fill it, and the array ends holding the projection everywhere.
-/
import proofs.«125526_j83863531421968_2_alg».proof.Proof.Gen.KernelIdeal.Frame
import proofs.«125526_j83863531421968_2_alg».proof.Proof.Spec
import proofs.«125526_j83863531421968_2_alg».proof.Proof.LibDotRows
import proofs.«125526_j83863531421968_2_alg».proof.Proof.LibRowBroadcast
import proofs.«125526_j83863531421968_2_alg».proof.Proof.LibRowCast
import Idealize.ShloMosaic.Lib.Pipeline.Value
import Idealize.ShloMosaic.Lib.ValueIdx
import Idealize.ShloMosaic.PureOps.Ideal.Laws

noncomputable section

namespace Cert.Joiner.Proj0

open Idealize.ShloMosaic Idealize.ShloMosaic.TcCoe Idealize.SL.Sem Idealize.ShloMosaic.ValueIdx
open Cert.KernelIdeal Cert.KernelIdeal.Gen
open Cert.Hand

/-- The product of the input rows with the weight columns, read at (s, j): the sum over the 512 features d of
    row s's feature d times column j's feature d. -/
theorem rows_times_cols (l : FVec Ideal S256x512 .bf16) (r : FVec Ideal S512x640 .bf16) (p : Fin 256) (q : Fin 640) :
    matmul dot_S256x512_S512x640_S256x640_1_0_0_1_n_n none l r (constant (F := Ideal) S256x640 .f32 0x00000000#32) (ix2 p q)
      = ∑ k : Fin 512, l (ix2 p k) * r (ix2 k q) := by
  refine (Ideal.matmul_constant_zero_apply dot_S256x512_S512x640_S256x640_1_0_0_1_n_n none l r (ix2 p q)).trans ?_
  dot_rows dot_S256x512_S512x640_S256x640_1_0_0_1_n_n S256x512 S512x640 512

/-- The block's leading unit axis dropped: the block [1, 256, 512] viewed as a matrix [256, 512] reads, at (s, d),
    the block's entry (0, s, d) (both sit at row-major position 512 s + d). -/
theorem block_as_matrix (x0 : Vec Ideal S1x256x512 .f32) (s : Fin 256) (d : Fin 512) :
    shapeCast S256x512 x0 shapeCasts_S1x256x512_S256x512 (ix2 s d) = x0 (ix3 (0 : Fin 1) s d) :=
  shapeCast_apply x0 shapeCasts_S1x256x512_S256x512 (ix2 s d) (ix3 (0 : Fin 1) s d) (by
    rw [Shape.rowMajor_val_two, Shape.rowMajor_val_three]
    show ((0 : Fin 1).val * 256 + s.val) * 512 + d.val = s.val * 512 + d.val
    simp)

/-- The leading unit axis put back: the matrix [256, 640] stored as a block [1, 256, 640] reads, at (0, s, j), the
    matrix's entry (s, j). -/
theorem matrix_as_block (v : FVec Ideal S256x640 .f32) (s : Fin 256) (j : Fin 640) :
    shapeCast S1x256x640 v shapeCasts_S256x640_S1x256x640 (ix3 (0 : Fin 1) s j) = v (ix2 s j) :=
  shapeCast_apply v shapeCasts_S256x640_S1x256x640 (ix3 (0 : Fin 1) s j) (ix2 s j) (by
    rw [Shape.rowMajor_val_two, Shape.rowMajor_val_three]
    show s.val * 640 + j.val = ((0 : Fin 1).val * 256 + s.val) * 640 + j.val
    simp)

/-- What one grid point stores, entry by entry: at (0, s, j) of the output block, the inner product of row s of the input
    block with column j of the weights, plus bias j. -/
theorem stored_at (x0 : Vec Ideal S1x256x512 .f32) (x1 : Vec Ideal S512x640 .bf16) (x2 : Vec Ideal S640 .f32)
    (s : Fin 256) (j : Fin 640) :
    k0_pay1 x0 x1 x2 (ix3 (0 : Fin 1) s j) = (∑ d : Fin 512, x0 (ix3 (0 : Fin 1) s d) * x1 (ix2 d j)) + x2 (ix1 j) := by
  unfold k0_pay1
  refine (matrix_as_block _ s j).trans ?_
  refine (addf_apply _ _ (ix2 s j)).trans ?_
  refine congrArg₂ (· + ·) ?_ ?_
  · refine (rows_times_cols _ _ s j).trans ?_
    refine Finset.sum_congr rfl fun d _ => ?_
    refine congrArg₂ (· * ·) ?_ ?_
    · refine (truncf_apply (ψ := .bf16) (shapeCast S256x512 x0 shapeCasts_S1x256x512_S256x512) bitsLt_bf16_f32 (ix2 s d)).trans ?_
      exact block_as_matrix x0 s d
    · rw [shapeCast_self]
  · refine (Cert.RowBroadcast.broadcastTo_1b_ab_apply _ broadcasts_S1x640_S256x640 s j).trans ?_
    exact Cert.RowCast.shapeCast_row_apply x2 shapeCasts_S640_S1x640 (0 : Fin 1) j

/-! ## From the four blocks to the array -/

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block index maps, decided over the four grid points: the input block moves with the output block along the
    batch axis and both stay at 0 on the other two; the weights and the bias are always at block 0; the output block's
    batch index is at most 3. -/
theorem block_indices : ∀ t : Fin cfg0.N,
    win0_0.index t (0 : Fin 3) = win0_3.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (1 : Fin 3) = 0 ∧ win0_3.index t (2 : Fin 3) = 0
    ∧ win0_3.index t (0 : Fin 3) ≤ 3 :=
  (by decide +kernel : ∀ t : Fin grid0.N, _)

/-- Every batch entry is some grid point's output block. -/
theorem block_onto : ∀ q : Fin 4, ∃ t : Fin cfg0.N, win0_3.index t = ![q.val, 0, 0] :=
  (by decide +kernel : ∀ q : Fin 4, ∃ t : Fin grid0.N, win0_3.index t = ![q.val, 0, 0])

/-- The input block at a grid point is the slab of the input array at the output block's batch entry b: its entry
    (0, s, d) is x[b, s, d]. -/
theorem input_block_at (c : Dev nD) (t : Fin cfg0.N) (b : Fin 4) (hb : win0_3.index t (0 : Fin 3) = b.val) (s : Fin 256) (d : Fin 512) :
    (iblk0 (F := Ideal) V c 0 t : Vec Ideal S1x256x512 .f32) (ix3 (0 : Fin 1) s d)
      = (V c main_arg0 : S4x256x512.Idx → EReal) (ix3 b s d) := by
  obtain ⟨e0, e1, e2, -⟩ := block_indices t
  unfold iblk0
  rw [View.read_apply]
  show V c main_arg0 _ = V c main_arg0 _
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 256 + 1 * s.val = s.val; rw [e1]; omega
  | ⟨2, _⟩ => show win0_0.index t (2 : Fin 3) * 512 + 1 * d.val = d.val; rw [e2]; omega

/-- The weights' block at every grid point is the whole transposed weight matrix. -/
theorem weights_block_at (c : Dev nD) (t : Fin cfg0.N) (d : Fin 512) (j : Fin 640) :
    (iblk0 (F := Ideal) V c 1 t : Vec Ideal S512x640 .bf16) (ix2 d j)
      = (V c main_v1 : S512x640.Idx → EReal) (ix2 d j) := by
  obtain ⟨-, -, -, e3, e4, -⟩ := block_indices t
  unfold iblk0
  rw [View.read_apply]
  show V c main_v1 _ = V c main_v1 _
  congr 1
  funext a
  apply Fin.ext
  match a with
  | ⟨0, _⟩ => show win0_1.index t (0 : Fin 2) * 512 + 1 * d.val = d.val; rw [e3]; omega
  | ⟨1, _⟩ => show win0_1.index t (1 : Fin 2) * 640 + 1 * j.val = j.val; rw [e4]; omega

/-- The bias's block at every grid point is the whole bias. -/
theorem bias_block_at (c : Dev nD) (t : Fin cfg0.N) (j : Fin 640) :
    (iblk0 (F := Ideal) V c 2 t : Vec Ideal S640 .f32) (ix1 j)
      = (V c main_arg3 : S640.Idx → EReal) (ix1 j) := by
  obtain ⟨-, -, -, -, -, e5, -⟩ := block_indices t
  unfold iblk0
  rw [View.read_apply]
  show V c main_arg3 _ = V c main_arg3 _
  congr 1
  funext a
  apply Fin.ext
  match a with
  | ⟨0, _⟩ => show win0_2.index t (0 : Fin 1) * 640 + 1 * j.val = j.val; rw [e5]; omega

/-- An entry of the output block at a grid point sits in the output array at the block's batch entry and at its own
    row and column. -/
theorem output_entry_at (t : Fin cfg0.N) (b : Fin 4) (hb : win0_3.index t (0 : Fin 3) = b.val) (s : Fin 256) (j : Fin 640) :
    (((cfg0.win 3).blk t).view.emb (ix3 (0 : Fin 1) s j) : S4x256x640.Idx) = ix3 b s j := by
  obtain ⟨-, -, -, -, -, -, e6, e7, -⟩ := block_indices t
  funext a
  apply Fin.ext
  match a with
  | ⟨0, _⟩ => show win0_3.index t (0 : Fin 3) * 1 + 1 * (0 : Fin 1).val = b.val; rw [hb]; simp
  | ⟨1, _⟩ => show win0_3.index t (1 : Fin 3) * 256 + 1 * s.val = s.val; rw [e6]; omega
  | ⟨2, _⟩ => show win0_3.index t (2 : Fin 3) * 640 + 1 * j.val = j.val; rw [e7]; omega

/-- What a grid point stores at an entry of its output block is the projection at the place of the output array where
    that entry sits. -/
theorem stored_is_projection (c : Dev nD) (t : Fin cfg0.N) (y : S1x256x640.Idx) :
    k0_pay1 (iblk0 (F := Ideal) V c 0 t) (iblk0 V c 1 t) (iblk0 V c 2 t) y
      = Cert.Joiner.encProjT (V c main_arg0) (V c main_v1) (V c main_arg3) (((cfg0.win 3).blk t).view.emb y) := by
  obtain ⟨u, s, j, rfl⟩ : ∃ (u : Fin 1) (s : Fin 256) (j : Fin 640), y = ix3 u s j := ⟨y 0, y 1, y 2, eq_ix3 y⟩
  obtain rfl : u = 0 := Subsingleton.elim _ _
  have h3 : win0_3.index t (0 : Fin 3) ≤ 3 := (block_indices t).2.2.2.2.2.2.2.2
  have hb : win0_3.index t (0 : Fin 3) = (⟨win0_3.index t (0 : Fin 3), by omega⟩ : Fin 4).val := rfl
  refine (stored_at _ _ _ s j).trans ?_
  rw [output_entry_at t _ hb s j]
  show _ = Cert.Joiner.projTAt (V c main_arg0) (V c main_v1) (V c main_arg3) _ s j
  unfold Cert.Joiner.projTAt
  refine congrArg₂ (· + ·) (Finset.sum_congr rfl fun d _ => congrArg₂ (· * ·) ?_ ?_) ?_
  · exact input_block_at V c t _ hb s d
  · exact weights_block_at V c t d j
  · exact bias_block_at V c t j

/-- What a grid point writes back is its block of the projection of the arrays as the region finds them. -/
theorem written_back (c : Dev nD) (t : Fin cfg0.N) :
    (dat0 (F := Ideal) V c).flushed 3 t
      = ((cfg0.win 3).blk t).view.read (Elt Ideal) (Cert.Joiner.encProjT (V c main_arg0) (V c main_v1) (V c main_arg3)) := by
  show (cfg0.win 3).cut (grid0.coords t) ((dat0 V c).after 3 t) = _
  rw [after0_3]
  unfold out0_3
  rw [View.canon_unit_zero zeros3]
  simp only [View.ld_unit_zero (S := S1x256x512) zeros3, View.ld_unit_zero (S := S512x640) zeros2, View.ld_unit_zero (S := S640) zeros1]
  funext y
  exact stored_is_projection V c t y

/-- An index of the output array is in a grid point's block iff each coordinate is in the block's range on its axis. -/
theorem mem_block (t : Fin cfg0.N) (i : S4x256x640.Idx) :
    i ∈ ((cfg0.win 3).blk t).view.set ↔ ∀ a : Fin 3, win0_3.index t a * S1x256x640.size a ≤ (i a).val ∧ (i a).val < win0_3.index t a * S1x256x640.size a + S1x256x640.size a := by
  show i ∈ ((View.whole main_v6).slice (win0_3.rect t)).set ↔ _
  rw [View.set_slice_whole, Rect.mem_set_unit]
  exact Iff.rfl

/-- The four blocks fill the output array: the entry (b, s, j) is in the block of the grid point whose batch entry is b. -/
theorem blocks_cover (i : S4x256x640.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 640 := (i 2).isLt
  obtain ⟨t, ht⟩ := block_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 640 ≤ (i 2).val ∧ (i 2).val < win0_3.index t (2 : Fin 3) * 640 + 640; omega

/-- THE OUTPUT ARRAY after the region: the encoder's projection, against the transposed weights, of the arrays as the
    region finds them. -/
theorem final0 (c : Dev nD) :
    (dat0 (F := Ideal) V c).arrAt 3 cfg0.N = Cert.Joiner.encProjT (V c main_arg0) (V c main_v1) (V c main_arg3) :=
  (dat0 V c).arrAt_eq_of_cover 3 _ (fun t _ => written_back V c t) blocks_cover

end Cert.Joiner.Proj0

end
-- ==== Proof.ProjValue1.lean ====
/-
  The predictor's projection as the second region leaves it.

  The region walks a grid of four points, one per batch entry b. At point b it holds the block x[b, :, :] of the
  input (64 rows of 512 features), the whole transposed weight matrix wT (512 by 640) and the whole bias (640
  entries), and writes the block out[b, :, :] (64 rows of 640 features). Entry (s, j) of what it writes is the
  inner product of row s of the input block with column j of wT, plus bias j:
      out[b, s, j] = Σ_{d < 512} x[b, s, d] · wT[d, j] + bias[j].
  So an output entry depends on one row of the input (the one with its own batch entry and row number), on one column
  of the weights and on one bias entry. The four output blocks are the four slabs b = 0, 1, 2, 3 of the output array,
  so together they fill it, and the array ends holding the projection everywhere.
-/
import proofs.«125526_j83863531421968_2_alg».proof.Proof.Gen.KernelIdeal.Frame
import proofs.«125526_j83863531421968_2_alg».proof.Proof.Spec
import proofs.«125526_j83863531421968_2_alg».proof.Proof.LibDotRows
import proofs.«125526_j83863531421968_2_alg».proof.Proof.LibRowBroadcast
import proofs.«125526_j83863531421968_2_alg».proof.Proof.LibRowCast
import Idealize.ShloMosaic.Lib.Pipeline.Value
import Idealize.ShloMosaic.Lib.ValueIdx
import Idealize.ShloMosaic.PureOps.Ideal.Laws

noncomputable section

namespace Cert.Joiner.Proj1

open Idealize.ShloMosaic Idealize.ShloMosaic.TcCoe Idealize.SL.Sem Idealize.ShloMosaic.ValueIdx
open Cert.KernelIdeal Cert.KernelIdeal.Gen
open Cert.Hand

/-- The product of the input rows with the weight columns, read at (s, j): the sum over the 512 features d of
    row s's feature d times column j's feature d. -/
theorem rows_times_cols (l : FVec Ideal S64x512 .bf16) (r : FVec Ideal S512x640 .bf16) (p : Fin 64) (q : Fin 640) :
    matmul dot_S64x512_S512x640_S64x640_1_0_0_1_n_n none l r (constant (F := Ideal) S64x640 .f32 0x00000000#32) (ix2 p q)
      = ∑ k : Fin 512, l (ix2 p k) * r (ix2 k q) := by
  refine (Ideal.matmul_constant_zero_apply dot_S64x512_S512x640_S64x640_1_0_0_1_n_n none l r (ix2 p q)).trans ?_
  dot_rows dot_S64x512_S512x640_S64x640_1_0_0_1_n_n S64x512 S512x640 512

/-- The block's leading unit axis dropped: the block [1, 64, 512] viewed as a matrix [64, 512] reads, at (s, d),
    the block's entry (0, s, d) (both sit at row-major position 512 s + d). -/
theorem block_as_matrix (x0 : Vec Ideal S1x64x512 .f32) (s : Fin 64) (d : Fin 512) :
    shapeCast S64x512 x0 shapeCasts_S1x64x512_S64x512 (ix2 s d) = x0 (ix3 (0 : Fin 1) s d) :=
  shapeCast_apply x0 shapeCasts_S1x64x512_S64x512 (ix2 s d) (ix3 (0 : Fin 1) s d) (by
    rw [Shape.rowMajor_val_two, Shape.rowMajor_val_three]
    show ((0 : Fin 1).val * 64 + s.val) * 512 + d.val = s.val * 512 + d.val
    simp)

/-- The leading unit axis put back: the matrix [64, 640] stored as a block [1, 64, 640] reads, at (0, s, j), the
    matrix's entry (s, j). -/
theorem matrix_as_block (v : FVec Ideal S64x640 .f32) (s : Fin 64) (j : Fin 640) :
    shapeCast S1x64x640 v shapeCasts_S64x640_S1x64x640 (ix3 (0 : Fin 1) s j) = v (ix2 s j) :=
  shapeCast_apply v shapeCasts_S64x640_S1x64x640 (ix3 (0 : Fin 1) s j) (ix2 s j) (by
    rw [Shape.rowMajor_val_two, Shape.rowMajor_val_three]
    show s.val * 640 + j.val = ((0 : Fin 1).val * 64 + s.val) * 640 + j.val
    simp)

/-- What one grid point stores, entry by entry: at (0, s, j) of the output block, the inner product of row s of the input
    block with column j of the weights, plus bias j. -/
theorem stored_at (x0 : Vec Ideal S1x64x512 .f32) (x1 : Vec Ideal S512x640 .bf16) (x2 : Vec Ideal S640 .f32)
    (s : Fin 64) (j : Fin 640) :
    k1_pay1 x0 x1 x2 (ix3 (0 : Fin 1) s j) = (∑ d : Fin 512, x0 (ix3 (0 : Fin 1) s d) * x1 (ix2 d j)) + x2 (ix1 j) := by
  unfold k1_pay1
  refine (matrix_as_block _ s j).trans ?_
  refine (addf_apply _ _ (ix2 s j)).trans ?_
  refine congrArg₂ (· + ·) ?_ ?_
  · refine (rows_times_cols _ _ s j).trans ?_
    refine Finset.sum_congr rfl fun d _ => ?_
    refine congrArg₂ (· * ·) ?_ ?_
    · refine (truncf_apply (ψ := .bf16) (shapeCast S64x512 x0 shapeCasts_S1x64x512_S64x512) bitsLt_bf16_f32 (ix2 s d)).trans ?_
      exact block_as_matrix x0 s d
    · rw [shapeCast_self]
  · refine (Cert.RowBroadcast.broadcastTo_1b_ab_apply _ broadcasts_S1x640_S64x640 s j).trans ?_
    exact Cert.RowCast.shapeCast_row_apply x2 shapeCasts_S640_S1x640 (0 : Fin 1) j

/-! ## From the four blocks to the array -/

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block index maps, decided over the four grid points: the input block moves with the output block along the
    batch axis and both stay at 0 on the other two; the weights and the bias are always at block 0; the output block's
    batch index is at most 3. -/
theorem block_indices : ∀ t : Fin cfg1.N,
    win1_0.index t (0 : Fin 3) = win1_3.index t (0 : Fin 3) ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (1 : Fin 3) = 0 ∧ win1_3.index t (2 : Fin 3) = 0
    ∧ win1_3.index t (0 : Fin 3) ≤ 3 :=
  (by decide +kernel : ∀ t : Fin grid1.N, _)

/-- Every batch entry is some grid point's output block. -/
theorem block_onto : ∀ q : Fin 4, ∃ t : Fin cfg1.N, win1_3.index t = ![q.val, 0, 0] :=
  (by decide +kernel : ∀ q : Fin 4, ∃ t : Fin grid1.N, win1_3.index t = ![q.val, 0, 0])

/-- The input block at a grid point is the slab of the input array at the output block's batch entry b: its entry
    (0, s, d) is x[b, s, d]. -/
theorem input_block_at (c : Dev nD) (t : Fin cfg1.N) (b : Fin 4) (hb : win1_3.index t (0 : Fin 3) = b.val) (s : Fin 64) (d : Fin 512) :
    (iblk1 (F := Ideal) V c 0 t : Vec Ideal S1x64x512 .f32) (ix3 (0 : Fin 1) s d)
      = (V c main_arg1 : S4x64x512.Idx → EReal) (ix3 b s d) := by
  obtain ⟨e0, e1, e2, -⟩ := block_indices t
  unfold iblk1
  rw [View.read_apply]
  show V c main_arg1 _ = V c main_arg1 _
  congr 1
  funext a
  apply Fin.ext
  match a with
  | ⟨0, _⟩ => show win1_0.index t (0 : Fin 3) * 1 + 1 * (0 : Fin 1).val = b.val; rw [e0, hb]; simp
  | ⟨1, _⟩ => show win1_0.index t (1 : Fin 3) * 64 + 1 * s.val = s.val; rw [e1]; omega
  | ⟨2, _⟩ => show win1_0.index t (2 : Fin 3) * 512 + 1 * d.val = d.val; rw [e2]; omega

/-- The weights' block at every grid point is the whole transposed weight matrix. -/
theorem weights_block_at (c : Dev nD) (t : Fin cfg1.N) (d : Fin 512) (j : Fin 640) :
    (iblk1 (F := Ideal) V c 1 t : Vec Ideal S512x640 .bf16) (ix2 d j)
      = (V c main_v3 : S512x640.Idx → EReal) (ix2 d j) := by
  obtain ⟨-, -, -, e3, e4, -⟩ := block_indices t
  unfold iblk1
  rw [View.read_apply]
  show V c main_v3 _ = V c main_v3 _
  congr 1
  funext a
  apply Fin.ext
  match a with
  | ⟨0, _⟩ => show win1_1.index t (0 : Fin 2) * 512 + 1 * d.val = d.val; rw [e3]; omega
  | ⟨1, _⟩ => show win1_1.index t (1 : Fin 2) * 640 + 1 * j.val = j.val; rw [e4]; omega

/-- The bias's block at every grid point is the whole bias. -/
theorem bias_block_at (c : Dev nD) (t : Fin cfg1.N) (j : Fin 640) :
    (iblk1 (F := Ideal) V c 2 t : Vec Ideal S640 .f32) (ix1 j)
      = (V c main_arg5 : S640.Idx → EReal) (ix1 j) := by
  obtain ⟨-, -, -, -, -, e5, -⟩ := block_indices t
  unfold iblk1
  rw [View.read_apply]
  show V c main_arg5 _ = V c main_arg5 _
  congr 1
  funext a
  apply Fin.ext
  match a with
  | ⟨0, _⟩ => show win1_2.index t (0 : Fin 1) * 640 + 1 * j.val = j.val; rw [e5]; omega

/-- An entry of the output block at a grid point sits in the output array at the block's batch entry and at its own
    row and column. -/
theorem output_entry_at (t : Fin cfg1.N) (b : Fin 4) (hb : win1_3.index t (0 : Fin 3) = b.val) (s : Fin 64) (j : Fin 640) :
    (((cfg1.win 3).blk t).view.emb (ix3 (0 : Fin 1) s j) : S4x64x640.Idx) = ix3 b s j := by
  obtain ⟨-, -, -, -, -, -, e6, e7, -⟩ := block_indices t
  funext a
  apply Fin.ext
  match a with
  | ⟨0, _⟩ => show win1_3.index t (0 : Fin 3) * 1 + 1 * (0 : Fin 1).val = b.val; rw [hb]; simp
  | ⟨1, _⟩ => show win1_3.index t (1 : Fin 3) * 64 + 1 * s.val = s.val; rw [e6]; omega
  | ⟨2, _⟩ => show win1_3.index t (2 : Fin 3) * 640 + 1 * j.val = j.val; rw [e7]; omega

/-- What a grid point stores at an entry of its output block is the projection at the place of the output array where
    that entry sits. -/
theorem stored_is_projection (c : Dev nD) (t : Fin cfg1.N) (y : S1x64x640.Idx) :
    k1_pay1 (iblk1 (F := Ideal) V c 0 t) (iblk1 V c 1 t) (iblk1 V c 2 t) y
      = Cert.Joiner.predProjT (V c main_arg1) (V c main_v3) (V c main_arg5) (((cfg1.win 3).blk t).view.emb y) := by
  obtain ⟨u, s, j, rfl⟩ : ∃ (u : Fin 1) (s : Fin 64) (j : Fin 640), y = ix3 u s j := ⟨y 0, y 1, y 2, eq_ix3 y⟩
  obtain rfl : u = 0 := Subsingleton.elim _ _
  have h3 : win1_3.index t (0 : Fin 3) ≤ 3 := (block_indices t).2.2.2.2.2.2.2.2
  have hb : win1_3.index t (0 : Fin 3) = (⟨win1_3.index t (0 : Fin 3), by omega⟩ : Fin 4).val := rfl
  refine (stored_at _ _ _ s j).trans ?_
  rw [output_entry_at t _ hb s j]
  show _ = Cert.Joiner.projTAt (V c main_arg1) (V c main_v3) (V c main_arg5) _ s j
  unfold Cert.Joiner.projTAt
  refine congrArg₂ (· + ·) (Finset.sum_congr rfl fun d _ => congrArg₂ (· * ·) ?_ ?_) ?_
  · exact input_block_at V c t _ hb s d
  · exact weights_block_at V c t d j
  · exact bias_block_at V c t j

/-- What a grid point writes back is its block of the projection of the arrays as the region finds them. -/
theorem written_back (c : Dev nD) (t : Fin cfg1.N) :
    (dat1 (F := Ideal) V c).flushed 3 t
      = ((cfg1.win 3).blk t).view.read (Elt Ideal) (Cert.Joiner.predProjT (V c main_arg1) (V c main_v3) (V c main_arg5)) := by
  show (cfg1.win 3).cut (grid1.coords t) ((dat1 V c).after 3 t) = _
  rw [after1_3]
  unfold out1_3
  rw [View.canon_unit_zero zeros3]
  simp only [View.ld_unit_zero (S := S1x64x512) zeros3, View.ld_unit_zero (S := S512x640) zeros2, View.ld_unit_zero (S := S640) zeros1]
  funext y
  exact stored_is_projection V c t y

/-- An index of the output array is in a grid point's block iff each coordinate is in the block's range on its axis. -/
theorem mem_block (t : Fin cfg1.N) (i : S4x64x640.Idx) :
    i ∈ ((cfg1.win 3).blk t).view.set ↔ ∀ a : Fin 3, win1_3.index t a * S1x64x640.size a ≤ (i a).val ∧ (i a).val < win1_3.index t a * S1x64x640.size a + S1x64x640.size a := by
  show i ∈ ((View.whole main_v7).slice (win1_3.rect t)).set ↔ _
  rw [View.set_slice_whole, Rect.mem_set_unit]
  exact Iff.rfl

/-- The four blocks fill the output array: the entry (b, s, j) is in the block of the grid point whose batch entry is b. -/
theorem blocks_cover (i : S4x64x640.Idx) :
    ∃ t : Fin cfg1.N, (cfg1.win 3).flush t = true ∧ i ∈ ((cfg1.win 3).blk t).view.set := by
  have hi0 : (i 0).val < 4 := (i 0).isLt
  have hi1 : (i 1).val < 64 := (i 1).isLt
  have hi2 : (i 2).val < 640 := (i 2).isLt
  obtain ⟨t, ht⟩ := block_onto ⟨(i 0).val, hi0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, flush1_3 t, ?_⟩
  rw [mem_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 640 ≤ (i 2).val ∧ (i 2).val < win1_3.index t (2 : Fin 3) * 640 + 640; omega

/-- THE OUTPUT ARRAY after the region: the predictor's projection, against the transposed weights, of the arrays as the
    region finds them. -/
theorem final1 (c : Dev nD) :
    (dat1 (F := Ideal) V c).arrAt 3 cfg1.N = Cert.Joiner.predProjT (V c main_arg1) (V c main_v3) (V c main_arg5) :=
  (dat1 V c).arrAt_eq_of_cover 3 _ (fun t _ => written_back V c t) blocks_cover

end Cert.Joiner.Proj1

end
-- ==== Proof.LibTileRows.lean ====
/-
  Rows grouped into tiles, read at an index given by coordinates.

  An array [a, b, c] and the array [a·b, c] of its rows taken tile after tile hold the same entries in the same
  row-major order: row p·b + u of the flat array is row u of tile p. So a reshape between the two shapes reads, at
  (p·b + u, k) on the flat side, the entry (p, u, k) on the tiled side, in either direction. A unit middle axis
  [a, c] → [a, 1, c] keeps the entries in order too. A broadcast along the middle axis, [a, 1, c] → [a, b, c], repeats
  each tile's one row b times, and a broadcast along the first axis, [1, b, c] → [a, b, c], repeats the one tile a
  times: together they form every pair (row of the first operand, row of the second), which is how a sum over all
  pairs of two families of rows is laid out.
-/
import Idealize.ShloMosaic.Lib.Pipeline.Value
import Idealize.ShloMosaic.Lib.ValueIdx

noncomputable section

namespace Cert.TileRows

open Idealize.ShloMosaic Idealize.ShloMosaic.ValueIdx

variable {α : Type}

/-- Tiles flattened: [a, b, c] cast to [m, c] (m = a·b) reads, at (r, k) with r = p·b + u, the entry (p, u, k). -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (k : Fin c) (r : Fin m)
    (hr : r.val = p.val * b + u.val) :
    shapeCast ⟨2, ![m, c]⟩ x h (ix2 r k) = x (ix3 p u k) :=
  shapeCast_apply x h _ _ (by
    rw [Shape.rowMajor_val_three, Shape.rowMajor_val_two]
    show (p.val * b + u.val) * c + k.val = r.val * c + k.val
    rw [hr])

/-- Rows regrouped into tiles: [m, c] cast to [a, b, c] (m = a·b) reads, at (p, u, k), the entry (p·b + u, k). -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (k : Fin c) (r : Fin m)
    (hr : r.val = p.val * b + u.val) :
    shapeCast ⟨3, ![a, b, c]⟩ x h (ix3 p u k) = x (ix2 r k) :=
  shapeCast_apply x h _ _ (by
    rw [Shape.rowMajor_val_three, Shape.rowMajor_val_two]
    show r.val * c + k.val = (p.val * b + u.val) * c + k.val
    rw [hr])

/-- A unit middle axis added: [a, c] cast to [a, 1, c] reads, at (p, z, k), the entry (p, k). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (k : Fin c) :
    shapeCast ⟨3, ![a, 1, c]⟩ x h (ix3 p z k) = x (ix2 p k) :=
  shapeCast_apply x h _ _ (by
    have hz : z.val = 0 := by have := z.isLt; omega
    rw [Shape.rowMajor_val_three, Shape.rowMajor_val_two]
    show p.val * c + k.val = (p.val * 1 + z.val) * c + k.val
    rw [hz, Nat.mul_one, Nat.add_zero])

/-- A broadcast along the middle axis: [a, 1, c] to [a, b, c] reads, at (p, u, k), the entry (p, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (k : Fin c) :
    broadcastTo ⟨3, ![a, b, c]⟩ x h (ix3 p u k) = x (ix3 p (0 : Fin 1) k) := by
  refine broadcastTo_apply x h (ix3 p u k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A broadcast along the first axis: [1, b, c] to [a, b, c] reads, at (p, u, k), the entry (0, u, k). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (k : Fin c) :
    broadcastTo ⟨3, ![a, b, c]⟩ x h (ix3 p u k) = x (ix3 (0 : Fin 1) u k) := by
  refine broadcastTo_apply x h (ix3 p u k) (ix3 (0 : Fin 1) u k) fun ax => ?_
  match ax with
  | ⟨0, _⟩ => rfl
  | ⟨1, _⟩ =>
    show u.val = if b = 1 then 0 else u.val
    split
    · have := u.isLt; omega
    · rfl
  | ⟨2, _⟩ =>
    show k.val = if c = 1 then 0 else k.val
    split
    · have := k.isLt; omega
    · rfl

end Cert.TileRows

end
-- ==== Proof.R2Pay.lean ====
/-
  The joint kernel's arithmetic, read at an index.

  At one grid point the kernel holds a tile of 32 rows of e (one batch entry, 32 consecutive values of t), the 64 rows
  of p of that batch entry, the transposed vocabulary weights and the vocabulary bias. It fills a table of 2048 rows
  and 640 columns in four chunks of 8 values of t: row 64·t + u of the table is tanh (e_t + p_u), entry by entry.
  Then one product of the table with the weights, plus the bias row, gives 2048 rows of 1024 logits, which are
  regrouped as [32, 64, 1024]: entry (t, u, v) is row 64·t + u at column v, that is
  Σ_j table[64·t + u, j] · wT[j, v] + bias[v].
  This module reads each of those pure steps at an index given by coordinates.
-/
import proofs.«125526_j83863531421968_2_alg».proof.Proof.Gen.KernelIdeal.Skeleton
import proofs.«125526_j83863531421968_2_alg».proof.Proof.LibDotRows
import proofs.«125526_j83863531421968_2_alg».proof.Proof.LibRowBroadcast
import proofs.«125526_j83863531421968_2_alg».proof.Proof.LibRowCast
import proofs.«125526_j83863531421968_2_alg».proof.Proof.LibTileRows
import Idealize.ShloMosaic.Lib.ValueLayout
import Idealize.ShloMosaic.PureOps.Ideal.Laws

noncomputable section

namespace Cert.Joiner.R2

open Idealize.ShloMosaic Idealize.ShloMosaic.ValueIdx
open Cert.KernelIdeal Cert.KernelIdeal.Gen Cert.Hand

/-- One chunk of the table: 8 rows of e against the 64 rows of p. Row 64·a + u of the chunk is
    tanh (e-row a + p-row u), entry by entry; the narrowing of the result is the identity on exact values. -/
theorem chunk_apply (v1 : FVec Ideal S64x640 .f32) (v4 : Vec Ideal S1x8x640 .f32)
    (h1 : S1x8x640.ShapeCasts S8x640) (h2 : S8x640.ShapeCasts S8x1x640) (h3 : S64x640.ShapeCasts S1x64x640)
    (h4 : S8x1x640.Broadcasts S8x64x640) (h5 : S1x64x640.Broadcasts S8x64x640) (h6 : FTy.bits .bf16 < FTy.bits .f32)
    (h7 : S8x64x640.ShapeCasts S512x640) (h8 : S512x640.ShapeCasts S512x640)
    (a : Fin 8) (u : Fin 64) (k : Fin 640) (r : Fin 512) (hr : r.val = a.val * 64 + u.val) :
    shapeCast S512x640 (shapeCast S512x640 (truncf .bf16 (tanh (addf
        (broadcastTo S8x64x640 (shapeCast S8x1x640 (shapeCast S8x640 v4 h1) h2) h4)
        (broadcastTo S8x64x640 (shapeCast S1x64x640 v1 h3) h5))) h6) h7) h8 (ix2 r k)
      = Ideal.tanh (v4 (ix3 (0 : Fin 1) a k) + v1 (ix2 u k)) := by
  rw [shapeCast_self]
  refine (Cert.TileRows.shapeCast_abc_mc_apply _ h7 a u k r hr).trans ?_
  show Ideal.tanh (broadcastTo S8x64x640 (shapeCast S8x1x640 (shapeCast S8x640 v4 h1) h2) h4 (ix3 a u k)
      + broadcastTo S8x64x640 (shapeCast S1x64x640 v1 h3) h5 (ix3 a u k)) = _
  rw [Cert.TileRows.broadcastTo_a1c_abc_apply, Cert.TileRows.broadcastTo_1bc_abc_apply,
    Cert.TileRows.shapeCast_ac_a1c_apply, shapeCast_1ab_ab_apply, shapeCast_ab_1ab_apply]

/-- The block of p seen as 64 rows. -/
theorem pay2_apply (v0 : Vec Ideal S1x64x640 .f32) (u : Fin 64) (k : Fin 640) :
    k2_pay2 v0 (ix2 u k) = v0 (ix3 (0 : Fin 1) u k) := by
  unfold k2_pay2
  exact shapeCast_1ab_ab_apply _ _ u k

/-- The four chunks, each read at row 64·a + u: tanh of e's row a of the chunk plus p's row u. -/
theorem pay3_apply (v0 : Vec Ideal S1x64x640 .f32) (v4 : Vec Ideal S1x8x640 .f32)
    (a : Fin 8) (u : Fin 64) (k : Fin 640) (r : Fin 512) (hr : r.val = a.val * 64 + u.val) :
    k2_pay3 v0 v4 (ix2 r k) = Ideal.tanh (v4 (ix3 (0 : Fin 1) a k) + v0 (ix3 (0 : Fin 1) u k)) := by
  unfold k2_pay3
  refine (chunk_apply (k2_pay2 v0) v4 _ _ _ _ _ _ _ _ a u k r hr).trans ?_
  rw [pay2_apply]

theorem pay4_apply (v0 : Vec Ideal S1x64x640 .f32) (v21 : Vec Ideal S1x8x640 .f32)
    (a : Fin 8) (u : Fin 64) (k : Fin 640) (r : Fin 512) (hr : r.val = a.val * 64 + u.val) :
    k2_pay4 v0 v21 (ix2 r k) = Ideal.tanh (v21 (ix3 (0 : Fin 1) a k) + v0 (ix3 (0 : Fin 1) u k)) := by
  unfold k2_pay4
  refine (chunk_apply (k2_pay2 v0) v21 _ _ _ _ _ _ _ _ a u k r hr).trans ?_
  rw [pay2_apply]

theorem pay5_apply (v1 : FVec Ideal S64x640 .f32) (v38 : Vec Ideal S1x8x640 .f32)
    (a : Fin 8) (u : Fin 64) (k : Fin 640) (r : Fin 512) (hr : r.val = a.val * 64 + u.val) :
    k2_pay5 v1 v38 (ix2 r k) = Ideal.tanh (v38 (ix3 (0 : Fin 1) a k) + v1 (ix2 u k)) := by
  unfold k2_pay5
  exact chunk_apply v1 v38 _ _ _ _ _ _ _ _ a u k r hr

theorem pay6_apply (v1 : FVec Ideal S64x640 .f32) (v55 : Vec Ideal S1x8x640 .f32)
    (a : Fin 8) (u : Fin 64) (k : Fin 640) (r : Fin 512) (hr : r.val = a.val * 64 + u.val) :
    k2_pay6 v1 v55 (ix2 r k) = Ideal.tanh (v55 (ix3 (0 : Fin 1) a k) + v1 (ix2 u k)) := by
  unfold k2_pay6
  exact chunk_apply v1 v55 _ _ _ _ _ _ _ _ a u k r hr

/-- The product of the table with the transposed vocabulary weights, into the zero accumulator, at (p, q):
    the sum over the joint dimension of table[p, k] · wT[k, q]. -/
theorem vocab_dot (l : FVec Ideal S2048x640 .bf16) (r : FVec Ideal S640x1024 .bf16) (p : Fin 2048) (q : Fin 1024) :
    matmul dot_S2048x640_S640x1024_S2048x1024_1_0_0_1_n_n none l r (constant (F := Ideal) S2048x1024 .f32 0x00000000#32) (ix2 p q)
      = ∑ k : Fin 640, l (ix2 p k) * r (ix2 k q) := by
  refine (Ideal.matmul_constant_zero_apply _ none l r (ix2 p q)).trans ?_
  dot_rows dot_S2048x640_S640x1024_S2048x1024_1_0_0_1_n_n S2048x640 S640x1024 640

/-- The logits of one tile, at (t, u, v): row 64·t + u of the product at column v, plus the bias at v. -/
theorem pay7_apply (v70 : Vec Ideal S640x1024 .bf16) (v72 : Vec Ideal S2048x640 .bf16) (v74 : Vec Ideal S1024 .f32)
    (t : Fin 32) (u : Fin 64) (v : Fin 1024) (p : Fin 2048) (hp : p.val = t.val * 64 + u.val) :
    k2_pay7 v70 v72 v74 (ix3 t u v) = (∑ k : Fin 640, v72 (ix2 p k) * v70 (ix2 k v)) + v74 (ix1 v) := by
  unfold k2_pay7
  refine (Cert.TileRows.shapeCast_mc_abc_apply _ shapeCasts_S2048x1024_S32x64x1024 t u v p hp).trans ?_
  rw [shapeCast_self]
  show matmul dot_S2048x640_S640x1024_S2048x1024_1_0_0_1_n_n none v72 v70 (constant (F := Ideal) S2048x1024 .f32 0x00000000#32) (ix2 p v)
      + broadcastTo S2048x1024 (shapeCast S1x1024 v74 shapeCasts_S1024_S1x1024) broadcasts_S1x1024_S2048x1024 (ix2 p v) = _
  rw [vocab_dot, Cert.RowBroadcast.broadcastTo_1b_ab_apply, Cert.RowCast.shapeCast_row_apply]

/-- The tile stored as a block with a leading unit axis. -/
theorem pay1_apply (v78 : FVec Ideal S32x64x1024 .f32) (z : Fin 1) (t : Fin 32) (u : Fin 64) (v : Fin 1024) :
    k2_pay1 v78 (ix4 z t u v) = v78 (ix3 t u v) := by
  unfold k2_pay1
  exact shapeCast_abc_1abc_apply _ _ z t u v

end Cert.Joiner.R2

end
-- ==== Proof.R2Body.lean ====
/-
  What the joint kernel leaves in its output block at one grid point.

  The body fills a table of 2048 rows (row 64·t + u, for the 32 values of t of the tile and the 64 values of u) by four
  stores of 512 rows each, reads the whole table back, multiplies it by the transposed vocabulary weights, adds the
  bias and stores the result as the output block. Each of the four stores writes a block of ONE function of the table's
  index — row r, column k holds tanh (e[r / 64, k] + p[r % 64, k]) — and together they tile the table, so the table read
  back is that function whatever it held before. The output block is then the last module's sum of products over it.
-/
import proofs.«125526_j83863531421968_2_alg».proof.Proof.Gen.KernelIdeal.Frame
import proofs.«125526_j83863531421968_2_alg».proof.Proof.R2Pay
import Idealize.ShloMosaic.Lib.Pipeline.Value

set_option maxRecDepth 16384

noncomputable section

namespace Cert.Joiner.R2

open Idealize.ShloMosaic Idealize.ShloMosaic.TcCoe Idealize.ShloMosaic.Tactic Idealize.SL.Sem Idealize.ShloMosaic.ValueIdx
open Cert.KernelIdeal Cert.KernelIdeal.Gen

/-- The table the kernel stages: row r, column k holds tanh (e[r / 64, k] + p[r % 64, k]), where e is the tile of 32
    rows of the encoder projection and p the 64 rows of the predictor projection the grid point holds. -/
def table (x0 : Vec Ideal S1x32x640 .f32) (x1 : Vec Ideal S1x64x640 .f32) : S2048x640.Idx → EReal := fun y =>
  Ideal.tanh (x0 (ix3 (0 : Fin 1) (⟨(y 0).val / 64, Nat.div_lt_of_lt_mul (show (y 0).val < 64 * 32 from (y 0).isLt)⟩ : Fin 32)
      (⟨(y 1).val, (y 1).isLt⟩ : Fin 640))
    + x1 (ix3 (0 : Fin 1) (⟨(y 0).val % 64, Nat.mod_lt _ (by decide)⟩ : Fin 64) (⟨(y 1).val, (y 1).isLt⟩ : Fin 640)))

/-- Chunk o of the table (o = 0 … 3): the store at rows 512·o … of the chunk computed from rows 8·o … of the tile of e
    writes the table's own entries there. -/
theorem chunk_is_table (x0 : Vec Ideal S1x32x640 .f32) (x1 : Vec Ideal S1x64x640 .f32) (o : ℕ)
    (offS : Fin 2 → ℕ) (hS : offS = ![512 * o, 0]) (inbS : ∀ a, offS a + S512x640.size a ≤ S2048x640.size a)
    (offE : Fin 3 → ℕ) (hE : offE = ![0, 8 * o, 0]) (inbE : ∀ a, offE a + S1x8x640.size a ≤ S1x32x640.size a)
    (pay : Vec Ideal S1x8x640 .f32 → FVec Ideal S512x640 .bf16)
    (hpay : ∀ (v4 : Vec Ideal S1x8x640 .f32) (a : Fin 8) (u : Fin 64) (k : Fin 640) (r : Fin 512), r.val = a.val * 64 + u.val →
      pay v4 (ix2 r k) = Ideal.tanh (v4 (ix3 (0 : Fin 1) a k) + x1 (ix3 (0 : Fin 1) u k)))
    (x : S512x640.Idx) :
    pay (View.ld x0 (Rect.unit (s := S1x32x640) offE S1x8x640.size inbE)) x
      = table x0 x1 ((Rect.unit (s := S2048x640) offS S512x640.size inbS).emb x) := by
  subst hS hE
  obtain ⟨r, k, rfl⟩ : ∃ (r : Fin 512) (k : Fin 640), x = ix2 r k := ⟨x 0, x 1, eq_ix2 x⟩
  have hr : r.val < 512 := r.isLt
  have ha : r.val / 64 < 8 := by omega
  have hu : r.val % 64 < 64 := Nat.mod_lt _ (by decide)
  rw [hpay _ ⟨r.val / 64, ha⟩ ⟨r.val % 64, hu⟩ k r (by show r.val = r.val / 64 * 64 + r.val % 64; omega)]
  have ho : 8 * o + 8 ≤ 32 := by have := inbE 1; exact this
  unfold table
  refine congrArg Ideal.tanh ?_
  refine congrArg₂ (· + ·) (congrArg x0 ?_) (congrArg x1 ?_)
  · funext a
    apply Fin.ext
    match a with
    | ⟨0, _⟩ => rfl
    | ⟨1, _⟩ =>
      show 8 * o + 1 * (r.val / 64) = (512 * o + 1 * r.val) / 64
      omega
    | ⟨2, _⟩ =>
      show 0 + 1 * k.val = 0 + 1 * k.val
      rfl
  · funext a
    apply Fin.ext
    match a with
    | ⟨0, _⟩ => rfl
    | ⟨1, _⟩ =>
      show r.val % 64 = (512 * o + 1 * r.val) % 64
      omega
    | ⟨2, _⟩ =>
      show k.val = 0 + 1 * k.val
      omega

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A load of the whole table reads every index in place. -/
theorem whole_table_idx (inb : ∀ a, (![0, 0] : Fin 2 → Nat) a + S2048x640.size a ≤ S2048x640.size a) (j : S2048x640.Idx) :
    (Rect.unit (s := S2048x640) ![0, 0] S2048x640.size inb).toLoadRect.idx j = j := by
  funext a
  apply Fin.ext
  match a with
  | ⟨0, _⟩ => show 0 + 1 * (j 0).val = (j 0).val; omega
  | ⟨1, _⟩ => show 0 + 1 * (j 1).val = (j 1).val; omega

/-- What the body leaves in the output's staging buffer, from the blocks it was called with: the logits of the table
    of the tile of e and the rows of p against the weights and the bias. The table is rewritten in full at every grid point,
    so nothing of what it held before enters the result. -/
theorem out2_eq (c : Dev nD) (i : grid2.Coords) (arg2 : Memref sig .tc .vmem S1x32x640 .f32) (harg2 : arg2.IsWhole)
    (arg3 : Memref sig .tc .vmem S1x64x640 .f32) (harg3 : arg3.IsWhole) (arg4 : Memref sig .tc .vmem S640x1024 .bf16) (harg4 : arg4.IsWhole)
    (arg5 : Memref sig .tc .vmem S1024 .f32) (harg5 : arg5.IsWhole) (arg6 : Memref sig .tc .vmem S1x32x64x1024 .f32) (harg6 : arg6.IsWhole)
    (arg7 : Memref sig .tc .vmem S2048x640 .bf16) (harg7 : arg7.IsWhole)
    (x0 : Vec Ideal S1x32x640 .f32) (x1 : Vec Ideal S1x64x640 .f32) (x2 : Vec Ideal S640x1024 .bf16) (x3 : Vec Ideal S1024 .f32) :
    out2_A_4 (F := Ideal) c i arg2 harg2 arg3 harg3 arg4 harg4 arg5 harg5 arg6 harg6 arg7 harg7 x0 x1 x2 x3
      = k2_pay1 (k2_pay7 x2 (table x0 x1) x3) := by
  unfold out2_A_4
  rw [View.read_writes_junk_eq_canon]
  unfold kernelRun2_A
  dsimp only
  sl_unfold_words
  rw [View.canon_unit_zero hz4]
  simp only [View.readAt_eq_ld, harg2.read_unread, harg3.read_unread, harg4.read_unread, harg5.read_unread]
  rw [View.ld_unit_zero (S := S640x1024) hz2, View.ld_unit_zero (S := S1024) hz1, View.ld_unit_zero (S := S1x64x640) hz3]
  refine congrArg k2_pay1 (congrArg (fun z => k2_pay7 x2 z x3) ?_)
  refine (View.readCov_eq_canon' _ _ _).trans (funext fun y => ?_)
  refine (congrArg (View.canon _) (whole_table_idx _ y)).trans ?_
  refine View.canon_apply_of_pieces (Val := Elt Ideal) (e := .bf16) (table x0 x1) _ (fun p hp => ?_) y
    (View.cover_of_tiledL (s := S2048x640) _ S512x640.size (by sl_kernel_rfl) y)
  simp only [List.mem_cons, List.not_mem_nil, or_false] at hp
  rcases hp with rfl | rfl | rfl | rfl
  · exact fun x => chunk_is_table x0 x1 3 ![1536, 0] rfl (by decide) ![0, 24, 0] rfl (by decide) (fun v4 => k2_pay6 (k2_pay2 x1) v4)
      (fun v4 a u k r hr => (pay6_apply (k2_pay2 x1) v4 a u k r hr).trans (by rw [pay2_apply])) x
  · exact fun x => chunk_is_table x0 x1 2 ![1024, 0] rfl (by decide) ![0, 16, 0] rfl (by decide) (fun v4 => k2_pay5 (k2_pay2 x1) v4)
      (fun v4 a u k r hr => (pay5_apply (k2_pay2 x1) v4 a u k r hr).trans (by rw [pay2_apply])) x
  · exact fun x => chunk_is_table x0 x1 1 ![512, 0] rfl (by decide) ![0, 8, 0] rfl (by decide) (fun v4 => k2_pay4 x1 v4)
      (fun v4 a u k r hr => pay4_apply x1 v4 a u k r hr) x
  · exact fun x => chunk_is_table x0 x1 0 ![0, 0] rfl (by decide) ![0, 0, 0] rfl (by decide) (fun v4 => k2_pay3 x1 v4)
      (fun v4 a u k r hr => pay3_apply x1 v4 a u k r hr) x

end Cert.Joiner.R2

end
-- ==== Proof.R2Value.lean ====
/-
  The logits array as the third region leaves it.

  The region walks a grid of 4 × 8 points: a batch entry b and a tile of 32 consecutive values of t. At point (b, i) it
  holds the tile e[b, 32·i … 32·i + 31, :] of the encoder projection, all 64 rows p[b, :, :] of the predictor
  projection, the whole transposed vocabulary matrix and the whole vocabulary bias, and writes the block
  out[b, 32·i … 32·i + 31, :, :]. Entry (t', u, v) of that block is Σ_j tanh (e[b, 32·i + t', j] + p[b, u, j]) · wT[j, v]
  + bias[v]: it depends on one row of e, one row of p, one column of the weights and one bias entry. The 32 blocks are
  the 32 slabs (b, i) of the output array, so together they fill it.
-/
import proofs.«125526_j83863531421968_2_alg».proof.Proof.Gen.KernelIdeal.Frame
import proofs.«125526_j83863531421968_2_alg».proof.Proof.Spec
import proofs.«125526_j83863531421968_2_alg».proof.Proof.R2Body
import Idealize.ShloMosaic.Lib.Pipeline.Value

set_option maxRecDepth 16384

noncomputable section

namespace Cert.Joiner.R2

open Idealize.ShloMosaic Idealize.ShloMosaic.TcCoe Idealize.SL.Sem Idealize.ShloMosaic.ValueIdx
open Cert.KernelIdeal Cert.KernelIdeal.Gen

/-- The logits of one tile, entry (t', u, v): the table's row 64·t' + u is tanh (e-row t' + p-row u), so the sum over
    the joint dimension is Σ_j tanh (e[t', j] + p[u, j]) · wT[j, v], plus the bias at v. -/
theorem block_logits (x0 : Vec Ideal S1x32x640 .f32) (x1 : Vec Ideal S1x64x640 .f32) (x2 : Vec Ideal S640x1024 .bf16)
    (x3 : Vec Ideal S1024 .f32) (z : Fin 1) (t' : Fin 32) (u : Fin 64) (v : Fin 1024) :
    k2_pay1 (k2_pay7 x2 (table x0 x1) x3) (ix4 z t' u v)
      = (∑ k : Fin 640, Ideal.tanh (x0 (ix3 (0 : Fin 1) t' k) + x1 (ix3 (0 : Fin 1) u k)) * x2 (ix2 k v)) + x3 (ix1 v) := by
  have ht : t'.val < 32 := t'.isLt
  have hu : u.val < 64 := u.isLt
  refine (pay1_apply _ z t' u v).trans ?_
  refine (pay7_apply x2 (table x0 x1) x3 t' u v ⟨t'.val * 64 + u.val, by omega⟩ rfl).trans ?_
  refine congrArg₂ (· + ·) (Finset.sum_congr rfl fun k _ => congrArg₂ (· * ·) ?_ rfl) rfl
  unfold table
  refine congrArg Ideal.tanh (congrArg₂ (· + ·) (congrArg x0 ?_) (congrArg x1 ?_))
  · funext a
    apply Fin.ext
    match a with
    | ⟨0, _⟩ => rfl
    | ⟨1, _⟩ => show (t'.val * 64 + u.val) / 64 = t'.val; omega
    | ⟨2, _⟩ => rfl
  · funext a
    apply Fin.ext
    match a with
    | ⟨0, _⟩ => rfl
    | ⟨1, _⟩ => show (t'.val * 64 + u.val) % 64 = u.val; omega
    | ⟨2, _⟩ => rfl

variable (V : (c : Dev nD) → (b : Ref sig .tc) → Buf (Elt Ideal) ((c : Thread nD τ).loc b))

/-- What the output's staging buffer holds after the body at point t, from the point's blocks. -/
theorem outsAt2_eq (c : Dev nD) (t : Fin cfg2.N) :
    outsAt2 (F := Ideal) V c t
      = k2_pay1 (k2_pay7 (iblk2 V c 2 t) (table (iblk2 V c 0 t) (iblk2 V c 1 t)) (iblk2 V c 3 t)) := by
  unfold outsAt2
  exact out2_eq c (grid2.coords t) (ms2_0 t) (hs2_0 t) (ms2_1 t) (hs2_1 t) (ms2_2 t) (hs2_2 t) (ms2_3 t) (hs2_3 t)
    (ms2_4 t) (hs2_4 t) scM2_0 (Memref.isWhole_whole _) (iblk2 V c 0 t) (iblk2 V c 1 t) (iblk2 V c 2 t) (iblk2 V c 3 t)

/-- The block index maps, decided over the 32 grid points: the tile of e moves with the output block along the batch
    axis and the t axis; the rows of p move with it along the batch axis only; the weights and the bias are always at
    block 0; the output block's indices stay in their ranges. -/
theorem block_indices : ∀ t : Fin cfg2.N,
    win2_0.index t (0 : Fin 3) = win2_4.index t (0 : Fin 4) ∧ win2_0.index t (1 : Fin 3) = win2_4.index t (1 : Fin 4)
    ∧ win2_0.index t (2 : Fin 3) = 0
    ∧ win2_1.index t (0 : Fin 3) = win2_4.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (0 : Fin 1) = 0
    ∧ win2_4.index t (2 : Fin 4) = 0 ∧ win2_4.index t (3 : Fin 4) = 0
    ∧ win2_4.index t (0 : Fin 4) ≤ 3 ∧ win2_4.index t (1 : Fin 4) ≤ 7 :=
  (by decide +kernel : ∀ t : Fin grid2.N, _)

/-- Every pair (batch entry, tile) is some grid point's output block. -/
theorem block_onto : ∀ (q0 : Fin 4) (q1 : Fin 8), ∃ t : Fin cfg2.N, win2_4.index t = ![q0.val, q1.val, 0, 0] :=
  (by decide +kernel : ∀ (q0 : Fin 4) (q1 : Fin 8), ∃ t : Fin grid2.N, win2_4.index t = ![q0.val, q1.val, 0, 0])

/-- The tile of e at a grid point: its row t' is row 32·i + t' of batch entry b of the encoder projection. -/
theorem e_block_at (c : Dev nD) (t : Fin cfg2.N) (b : Fin 4) (hb : win2_4.index t (0 : Fin 4) = b.val)
    (T : Fin 256) (t' : Fin 32) (hT : win2_4.index t (1 : Fin 4) * 32 + t'.val = T.val) (k : Fin 640) :
    (iblk2 (F := Ideal) V c 0 t : Vec Ideal S1x32x640 .f32) (ix3 (0 : Fin 1) t' k)
      = (V c main_v6 : S4x256x640.Idx → EReal) (ix3 b T k) := by
  obtain ⟨e0, e1, e2, -⟩ := block_indices t
  unfold iblk2
  rw [View.read_apply]
  show V c main_v6 _ = V c main_v6 _
  congr 1
  funext a
  apply Fin.ext
  match a with
  | ⟨0, _⟩ => show win2_0.index t (0 : Fin 3) * 1 + 1 * (0 : Fin 1).val = b.val; rw [e0, hb]; simp
  | ⟨1, _⟩ => show win2_0.index t (1 : Fin 3) * 32 + 1 * t'.val = T.val; rw [e1]; omega
  | ⟨2, _⟩ => show win2_0.index t (2 : Fin 3) * 640 + 1 * k.val = k.val; rw [e2]; omega

/-- The rows of p at a grid point are those of batch entry b of the predictor projection. -/
theorem p_block_at (c : Dev nD) (t : Fin cfg2.N) (b : Fin 4) (hb : win2_4.index t (0 : Fin 4) = b.val)
    (u : Fin 64) (k : Fin 640) :
    (iblk2 (F := Ideal) V c 1 t : Vec Ideal S1x64x640 .f32) (ix3 (0 : Fin 1) u k)
      = (V c main_v7 : S4x64x640.Idx → EReal) (ix3 b u k) := by
  obtain ⟨-, -, -, e3, e4, e5, -⟩ := block_indices t
  unfold iblk2
  rw [View.read_apply]
  show V c main_v7 _ = V c main_v7 _
  congr 1
  funext a
  apply Fin.ext
  match a with
  | ⟨0, _⟩ => show win2_1.index t (0 : Fin 3) * 1 + 1 * (0 : Fin 1).val = b.val; rw [e3, hb]; simp
  | ⟨1, _⟩ => show win2_1.index t (1 : Fin 3) * 64 + 1 * u.val = u.val; rw [e4]; omega
  | ⟨2, _⟩ => show win2_1.index t (2 : Fin 3) * 640 + 1 * k.val = k.val; rw [e5]; omega

/-- The weights' block at every grid point is the whole transposed vocabulary matrix. -/
theorem w_block_at (c : Dev nD) (t : Fin cfg2.N) (k : Fin 640) (v : Fin 1024) :
    (iblk2 (F := Ideal) V c 2 t : Vec Ideal S640x1024 .bf16) (ix2 k v)
      = (V c main_v5 : S640x1024.Idx → EReal) (ix2 k v) := by
  obtain ⟨-, -, -, -, -, -, e6, e7, -⟩ := block_indices t
  unfold iblk2
  rw [View.read_apply]
  show V c main_v5 _ = V c main_v5 _
  congr 1
  funext a
  apply Fin.ext
  match a with
  | ⟨0, _⟩ => show win2_2.index t (0 : Fin 2) * 640 + 1 * k.val = k.val; rw [e6]; omega
  | ⟨1, _⟩ => show win2_2.index t (1 : Fin 2) * 1024 + 1 * v.val = v.val; rw [e7]; omega

/-- The bias's block at every grid point is the whole vocabulary bias. -/
theorem bias_block_at (c : Dev nD) (t : Fin cfg2.N) (v : Fin 1024) :
    (iblk2 (F := Ideal) V c 3 t : Vec Ideal S1024 .f32) (ix1 v)
      = (V c main_arg7 : S1024.Idx → EReal) (ix1 v) := by
  obtain ⟨-, -, -, -, -, -, -, -, e8, -⟩ := block_indices t
  unfold iblk2
  rw [View.read_apply]
  show V c main_arg7 _ = V c main_arg7 _
  congr 1
  funext a
  apply Fin.ext
  match a with
  | ⟨0, _⟩ => show win2_3.index t (0 : Fin 1) * 1024 + 1 * v.val = v.val; rw [e8]; omega

/-- An entry of the output block at a grid point sits in the output array at the block's batch entry, at row 32·i + t' of
    the t axis, and at its own u and v. -/
theorem output_entry_at (t : Fin cfg2.N) (b : Fin 4) (hb : win2_4.index t (0 : Fin 4) = b.val)
    (T : Fin 256) (t' : Fin 32) (hT : win2_4.index t (1 : Fin 4) * 32 + t'.val = T.val) (u : Fin 64) (v : Fin 1024) :
    (((cfg2.win 4).blk t).view.emb (ix4 (0 : Fin 1) t' u v) : S4x256x64x1024.Idx) = ix4 b T u v := by
  obtain ⟨-, -, -, -, -, -, -, -, -, e9, e10, -⟩ := block_indices t
  funext a
  apply Fin.ext
  match a with
  | ⟨0, _⟩ => show win2_4.index t (0 : Fin 4) * 1 + 1 * (0 : Fin 1).val = b.val; rw [hb]; simp
  | ⟨1, _⟩ => show win2_4.index t (1 : Fin 4) * 32 + 1 * t'.val = T.val; omega
  | ⟨2, _⟩ => show win2_4.index t (2 : Fin 4) * 64 + 1 * u.val = u.val; rw [e9]; omega
  | ⟨3, _⟩ => show win2_4.index t (3 : Fin 4) * 1024 + 1 * v.val = v.val; rw [e10]; omega

/-- What a grid point stores at an entry of its output block is the joint network's logit at the place of the output
    array where that entry sits. -/
theorem stored_is_logit (c : Dev nD) (t : Fin cfg2.N) (y : S1x32x64x1024.Idx) :
    k2_pay1 (k2_pay7 (iblk2 (F := Ideal) V c 2 t) (table (iblk2 V c 0 t) (iblk2 V c 1 t)) (iblk2 V c 3 t)) y
      = Cert.Joiner.joinT (V c main_v6) (V c main_v7) (V c main_v5) (V c main_arg7) (((cfg2.win 4).blk t).view.emb y) := by
  obtain ⟨z, t', u, v, rfl⟩ : ∃ (z : Fin 1) (t' : Fin 32) (u : Fin 64) (v : Fin 1024), y = ix4 z t' u v :=
    ⟨y 0, y 1, y 2, y 3, eq_ix4 y⟩
  obtain rfl : z = 0 := Subsingleton.elim _ _
  have h0 : win2_4.index t (0 : Fin 4) ≤ 3 := (block_indices t).2.2.2.2.2.2.2.2.2.2.2.1
  have h1 : win2_4.index t (1 : Fin 4) ≤ 7 := (block_indices t).2.2.2.2.2.2.2.2.2.2.2.2
  have ht' : t'.val < 32 := t'.isLt
  have hb : win2_4.index t (0 : Fin 4) = (⟨win2_4.index t (0 : Fin 4), by omega⟩ : Fin 4).val := rfl
  have hT : win2_4.index t (1 : Fin 4) * 32 + t'.val = (⟨win2_4.index t (1 : Fin 4) * 32 + t'.val, by omega⟩ : Fin 256).val := rfl
  refine (block_logits _ _ _ _ 0 t' u v).trans ?_
  rw [output_entry_at t _ hb _ t' hT u v]
  show _ = Cert.Joiner.joinTAt (V c main_v6) (V c main_v7) (V c main_v5) (V c main_arg7) _ _ u v
  unfold Cert.Joiner.joinTAt
  refine congrArg₂ (· + ·) (Finset.sum_congr rfl fun k _ => congrArg₂ (· * ·) (congrArg Ideal.tanh (congrArg₂ (· + ·) ?_ ?_)) ?_) ?_
  · exact e_block_at V c t _ hb _ t' hT k
  · exact p_block_at V c t _ hb u k
  · exact w_block_at V c t k v
  · exact bias_block_at V c t v

/-- What a grid point writes back is its block of the joint network's output on the arrays as the region finds them. -/
theorem written_back (c : Dev nD) (t : Fin cfg2.N) :
    (dat2 (F := Ideal) V c).flushed 4 t
      = ((cfg2.win 4).blk t).view.read (Elt Ideal)
          (Cert.Joiner.joinT (V c main_v6) (V c main_v7) (V c main_v5) (V c main_arg7)) := by
  show (cfg2.win 4).cut (grid2.coords t) ((dat2 V c).after 4 t) = _
  rw [after2_4, outsAt2_eq]
  funext y
  exact stored_is_logit V c t y

/-- An index of the output array is in a grid point's block iff each coordinate is in the block's range on its axis. -/
theorem mem_block (t : Fin cfg2.N) (i : S4x256x64x1024.Idx) :
    i ∈ ((cfg2.win 4).blk t).view.set ↔ ∀ a : Fin 4, win2_4.index t a * S1x32x64x1024.size a ≤ (i a).val
      ∧ (i a).val < win2_4.index t a * S1x32x64x1024.size a + S1x32x64x1024.size a := by
  show i ∈ ((View.whole main_v8).slice (win2_4.rect t)).set ↔ _
  rw [View.set_slice_whole, Rect.mem_set_unit]
  exact Iff.rfl

/-- The 32 blocks fill the output array: the entry (b, T, u, v) is in the block of the grid point (b, T / 32). -/
theorem blocks_cover (i : S4x256x64x1024.Idx) :
    ∃ t : Fin cfg2.N, (cfg2.win 4).flush t = true ∧ i ∈ ((cfg2.win 4).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := block_onto ⟨(i 0).val, hi0⟩ ⟨(i 1).val / 32, by omega⟩
  have q0 : win2_4.index t (0 : Fin 4) = (i 0).val := congrFun ht 0
  have q1 : win2_4.index t (1 : Fin 4) = (i 1).val / 32 := congrFun ht 1
  have q2 : win2_4.index t (2 : Fin 4) = 0 := congrFun ht 2
  have q3 : win2_4.index t (3 : Fin 4) = 0 := congrFun ht 3
  refine ⟨t, flush2_4 t, ?_⟩
  rw [mem_block]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 32 ≤ (i 1).val ∧ (i 1).val < win2_4.index t (1 : Fin 4) * 32 + 32; omega
  | ⟨2, _⟩ => show win2_4.index t (2 : Fin 4) * 64 ≤ (i 2).val ∧ (i 2).val < win2_4.index t (2 : Fin 4) * 64 + 64; omega
  | ⟨3, _⟩ => show win2_4.index t (3 : Fin 4) * 1024 ≤ (i 3).val ∧ (i 3).val < win2_4.index t (3 : Fin 4) * 1024 + 1024; omega

/-- THE OUTPUT ARRAY after the region: the joint network's output, against the transposed vocabulary weights, on the
    arrays as the region finds them. -/
theorem final2 (c : Dev nD) :
    (dat2 (F := Ideal) V c).arrAt 4 cfg2.N
      = Cert.Joiner.joinT (V c main_v6) (V c main_v7) (V c main_v5) (V c main_arg7) :=
  (dat2 V c).arrAt_eq_of_cover 4 _ (fun t _ => written_back V c t) blocks_cover

end Cert.Joiner.R2

end
-- ==== Proof.Chain.lean ====
/-
  The result array at the end of the program, as a function of the arguments.

  The program's segments hand arrays to one another. The host stretch writes the transposes of the three weight
  matrices (each narrowed afterwards, which changes nothing on exact values); the first launch reads enc, the first
  transposed matrix and enc_b and writes e; the second reads pred, the second transposed matrix and pred_b and writes p;
  the third reads e, p, the third transposed matrix and out_b and writes the result. No segment writes an array a later
  segment reads except as just said, so each launch finds in its input arrays exactly what the earlier segments left:
  the result is the joint network's output on e and p, which are the two projections of the arguments, and a sum against
  a transposed matrix is the same sum against the matrix with the two indices exchanged.
-/
import proofs.«125526_j83863531421968_2_alg».proof.Proof.Gen.KernelIdeal.Frame
import proofs.«125526_j83863531421968_2_alg».proof.Proof.Spec
import proofs.«125526_j83863531421968_2_alg».proof.Proof.ProjValue0
import proofs.«125526_j83863531421968_2_alg».proof.Proof.ProjValue1
import proofs.«125526_j83863531421968_2_alg».proof.Proof.R2Value
import Idealize.ShloMosaic.Lib.StableHlo.Run
import Idealize.ShloMosaic.Lib.ValueLayout

set_option maxRecDepth 16384

noncomputable section

namespace Cert.Joiner.Chain

open Idealize.ShloMosaic Idealize.ShloMosaic.TcCoe Idealize.SL.Sem Idealize.ShloMosaic.ValueIdx Idealize.ShloMosaic.StableHlo
open Cert.KernelIdeal Cert.KernelIdeal.Gen

/-- A matrix transposed and then narrowed reads as the transpose: entry (a, b) is the matrix's entry (b, a). -/
theorem narrowed_transpose {n k : ℕ} (w : (⟨2, ![n, k]⟩ : Shape).Idx → EReal)
    (h : (⟨2, ![n, k]⟩ : Shape).Transposes [1, 0] ⟨2, ![k, n]⟩) (h' : FTy.bits .bf16 < FTy.bits .f32) :
    (truncf (F := Ideal) (φ := .f32) .bf16 (transpose ⟨2, ![k, n]⟩ [1, 0] w h) h' : (⟨2, ![k, n]⟩ : Shape).Idx → EReal)
      = Cert.Joiner.tr w := by
  funext i
  obtain ⟨a, b, rfl⟩ : ∃ (a : Fin k) (b : Fin n), i = ix2 a b := ⟨i 0, i 1, eq_ix2 i⟩
  exact transpose_ix2_apply w h a b

variable (m : (ℓ : Loc nD τ sig) → Buf (Elt Ideal) ℓ) (ρ : Dev nD → PrngReg)

/-! ## After the host stretch -/

theorem host_arg0 (c : Dev nD) : W1 m ρ c (Proc.devRef .tc main_arg0) = m ((c : Thread nD τ).loc main_arg0) := by
  show StableHlo.after hostOps0 (W0 m ρ c) (Proc.devRef .tc main_arg0) = _
  after_results
theorem host_arg1 (c : Dev nD) : W1 m ρ c (Proc.devRef .tc main_arg1) = m ((c : Thread nD τ).loc main_arg1) := by
  show StableHlo.after hostOps0 (W0 m ρ c) (Proc.devRef .tc main_arg1) = _
  after_results
theorem host_arg3 (c : Dev nD) : W1 m ρ c (Proc.devRef .tc main_arg3) = m ((c : Thread nD τ).loc main_arg3) := by
  show StableHlo.after hostOps0 (W0 m ρ c) (Proc.devRef .tc main_arg3) = _
  after_results
theorem host_arg5 (c : Dev nD) : W1 m ρ c (Proc.devRef .tc main_arg5) = m ((c : Thread nD τ).loc main_arg5) := by
  show StableHlo.after hostOps0 (W0 m ρ c) (Proc.devRef .tc main_arg5) = _
  after_results
theorem host_arg7 (c : Dev nD) : W1 m ρ c (Proc.devRef .tc main_arg7) = m ((c : Thread nD τ).loc main_arg7) := by
  show StableHlo.after hostOps0 (W0 m ρ c) (Proc.devRef .tc main_arg7) = _
  after_results

/-- The three transposed weight matrices the host stretch leaves. -/
theorem host_encT (c : Dev nD) :
    (W1 m ρ c (Proc.devRef .tc main_v1) : S512x640.Idx → EReal) = Cert.Joiner.tr (m ((c : Thread nD τ).loc main_arg2)) := by
  refine Eq.trans ?_ (narrowed_transpose (m ((c : Thread nD τ).loc main_arg2)) transposes_S640x512_S512x640_1_0 bitsLt_bf16_f32)
  show StableHlo.after hostOps0 (W0 m ρ c) (Proc.devRef .tc main_v1) = _
  after_results
theorem host_predT (c : Dev nD) :
    (W1 m ρ c (Proc.devRef .tc main_v3) : S512x640.Idx → EReal) = Cert.Joiner.tr (m ((c : Thread nD τ).loc main_arg4)) := by
  refine Eq.trans ?_ (narrowed_transpose (m ((c : Thread nD τ).loc main_arg4)) transposes_S640x512_S512x640_1_0 bitsLt_bf16_f32)
  show StableHlo.after hostOps0 (W0 m ρ c) (Proc.devRef .tc main_v3) = _
  after_results
theorem host_outT (c : Dev nD) :
    (W1 m ρ c (Proc.devRef .tc main_v5) : S640x1024.Idx → EReal) = Cert.Joiner.tr (m ((c : Thread nD τ).loc main_arg6)) := by
  refine Eq.trans ?_ (narrowed_transpose (m ((c : Thread nD τ).loc main_arg6)) transposes_S1024x640_S640x1024_1_0 bitsLt_bf16_f32)
  show StableHlo.after hostOps0 (W0 m ρ c) (Proc.devRef .tc main_v5) = _
  after_results

/-! ## What the third launch finds -/

/-- In e's array: the encoder projection of the arguments (the first launch wrote it, the second left it alone). -/
theorem found_e (c : Dev nD) :
    (W3 m ρ c (Proc.devRef .tc main_v6) : S4x256x640.Idx → EReal)
      = Cert.Joiner.encProj (m ((c : Thread nD τ).loc main_arg0)) (m ((c : Thread nD τ).loc main_arg2)) (m ((c : Thread nD τ).loc main_arg3)) := by
  refine (W3_of_ne m ρ c main_v6 (by decide)).trans ?_
  refine (W2_arr m ρ c 3).trans ?_
  refine (Cert.Joiner.Proj0.final0 (V1 m ρ) c).trans ?_
  show Cert.Joiner.encProjT (W1 m ρ c (Proc.devRef .tc main_arg0)) (W1 m ρ c (Proc.devRef .tc main_v1)) (W1 m ρ c (Proc.devRef .tc main_arg3)) = _
  rw [host_arg0, host_arg3, host_encT, Cert.Joiner.encProjT_tr]

/-- In p's array: the predictor projection of the arguments (the second launch wrote it). -/
theorem found_p (c : Dev nD) :
    (W3 m ρ c (Proc.devRef .tc main_v7) : S4x64x640.Idx → EReal)
      = Cert.Joiner.predProj (m ((c : Thread nD τ).loc main_arg1)) (m ((c : Thread nD τ).loc main_arg4)) (m ((c : Thread nD τ).loc main_arg5)) := by
  refine (W3_arr m ρ c 3).trans ?_
  refine (Cert.Joiner.Proj1.final1 (V2 m ρ) c).trans ?_
  show Cert.Joiner.predProjT (W2 m ρ c (Proc.devRef .tc main_arg1)) (W2 m ρ c (Proc.devRef .tc main_v3)) (W2 m ρ c (Proc.devRef .tc main_arg5)) = _
  rw [W2_of_ne m ρ c main_arg1 (by decide), W2_of_ne m ρ c main_v3 (by decide), W2_of_ne m ρ c main_arg5 (by decide),
    host_arg1, host_arg5, host_predT, Cert.Joiner.predProjT_tr]

/-- In the transposed vocabulary matrix: the transpose of out_w (neither earlier launch touches it). -/
theorem found_w (c : Dev nD) :
    (W3 m ρ c (Proc.devRef .tc main_v5) : S640x1024.Idx → EReal) = Cert.Joiner.tr (m ((c : Thread nD τ).loc main_arg6)) := by
  refine (W3_of_ne m ρ c main_v5 (by decide)).trans ?_
  refine (W2_of_ne m ρ c main_v5 (by decide)).trans ?_
  exact host_outT m ρ c

/-- In the vocabulary bias: out_b as launched. -/
theorem found_b (c : Dev nD) : W3 m ρ c (Proc.devRef .tc main_arg7) = m ((c : Thread nD τ).loc main_arg7) := by
  refine (W3_of_ne m ρ c main_arg7 (by decide)).trans ?_
  refine (W2_of_ne m ρ c main_arg7 (by decide)).trans ?_
  exact host_arg7 m ρ c

/-- THE RESULT at the end of the program: the joiner's function of the eight arguments. -/
theorem result_eq (c : Dev nD) :
    (W4 m ρ c (Proc.devRef .tc main_v8) : S4x256x64x1024.Idx → EReal)
      = Cert.Joiner.logits (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 4).trans ?_
  refine (Cert.Joiner.R2.final2 (V3 m ρ) c).trans ?_
  show Cert.Joiner.joinT (W3 m ρ c (Proc.devRef .tc main_v6)) (W3 m ρ c (Proc.devRef .tc main_v7))
      (W3 m ρ c (Proc.devRef .tc main_v5)) (W3 m ρ c (Proc.devRef .tc main_arg7)) = _
  rw [found_e, found_p, found_w, found_b, Cert.Joiner.joinT_tr]
  rfl

end Cert.Joiner.Chain

end
-- ==== Proof.RefValue.lean ====
/-
  The reference computes the joiner's function.

  The reference forms e and p by one contraction each over the model dimension (enc against enc_w, pred against
  pred_w, both contracting the last axis of each operand) plus the bias broadcast along the leading axes; it broadcasts
  e along a new u axis and p along a new t axis, adds them, applies tanh, contracts the joint dimension against out_w
  and adds the vocabulary bias. Read at an index (b, t, u, v), each broadcast picks the operand's entry at the
  coordinates it keeps, so the result is Σ_j tanh (e[b,t,j] + p[b,u,j]) · out_w[v,j] + out_b[v] with
  e[b,t,j] = Σ_d enc[b,t,d] · enc_w[j,d] + enc_b[j] and p likewise: the function `logits` of the specification.
-/
import proofs.«125526_j83863531421968_2_alg».proof.Proof.Gen.ReferenceIdeal.Read
import proofs.«125526_j83863531421968_2_alg».proof.Proof.Spec

noncomputable section

namespace Cert.Joiner.Ref

open Idealize.ShloMosaic Idealize.ShloMosaic.ValueIdx
open Cert.ReferenceIdeal Cert.ReferenceIdeal.Read

/-- The reference's e is the encoder projection of the specification. -/
theorem enc_stage (x0 : (⟨S4x256x512, .f32⟩ : BufTy).Contents (Elt Ideal)) (x2 : (⟨S640x512, .f32⟩ : BufTy).Contents (Elt Ideal))
    (x3 : (⟨S640, .f32⟩ : BufTy).Contents (Elt Ideal)) :
    val_main_v3 (F := Ideal) x0 x2 x3 = Cert.Joiner.encProj x0 x2 x3 := by
  funext i
  obtain ⟨b, t, j, rfl⟩ : ∃ (b : Fin 4) (t : Fin 256) (j : Fin 640), i = ix3 b t j := ⟨i 0, i 1, i 2, eq_ix3 i⟩
  rw [val_main_v3_apply, val_main_v0_apply, val_main_v2_apply, val_main_v1_apply]
  have hl : ∀ k : Fin 512, lidx_main_v0 (ix3 b t j) k = ix3 b t k := fun k => funext fun a => Fin.ext (by
    match a with | ⟨0, _⟩ => rfl | ⟨1, _⟩ => rfl | ⟨2, _⟩ => rfl)
  have hr : ∀ k : Fin 512, ridx_main_v0 (ix3 b t j) k = ix2 j k := fun k => funext fun a => Fin.ext (by
    match a with | ⟨0, _⟩ => rfl | ⟨1, _⟩ => rfl)
  have hb : idx_main_v1 (idx_main_v2 (ix3 b t j)) = ix1 j := funext fun a => Fin.ext (by
    match a with | ⟨0, _⟩ => rfl)
  simp only [hl, hr, hb]
  rfl

/-- The reference's p is the predictor projection of the specification. -/
theorem pred_stage (x1 : (⟨S4x64x512, .f32⟩ : BufTy).Contents (Elt Ideal)) (x4 : (⟨S640x512, .f32⟩ : BufTy).Contents (Elt Ideal))
    (x5 : (⟨S640, .f32⟩ : BufTy).Contents (Elt Ideal)) :
    val_main_v7 (F := Ideal) x1 x4 x5 = Cert.Joiner.predProj x1 x4 x5 := by
  funext i
  obtain ⟨b, u, j, rfl⟩ : ∃ (b : Fin 4) (u : Fin 64) (j : Fin 640), i = ix3 b u j := ⟨i 0, i 1, i 2, eq_ix3 i⟩
  rw [val_main_v7_apply, val_main_v4_apply, val_main_v6_apply, val_main_v5_apply]
  have hl : ∀ k : Fin 512, lidx_main_v4 (ix3 b u j) k = ix3 b u k := fun k => funext fun a => Fin.ext (by
    match a with | ⟨0, _⟩ => rfl | ⟨1, _⟩ => rfl | ⟨2, _⟩ => rfl)
  have hr : ∀ k : Fin 512, ridx_main_v4 (ix3 b u j) k = ix2 j k := fun k => funext fun a => Fin.ext (by
    match a with | ⟨0, _⟩ => rfl | ⟨1, _⟩ => rfl)
  have hb : idx_main_v5 (idx_main_v6 (ix3 b u j)) = ix1 j := funext fun a => Fin.ext (by
    match a with | ⟨0, _⟩ => rfl)
  simp only [hl, hr, hb]
  rfl

/-- The reference's result is the specification's function of the eight arguments. -/
theorem result_eq (x0 : (⟨S4x256x512, .f32⟩ : BufTy).Contents (Elt Ideal)) (x1 : (⟨S4x64x512, .f32⟩ : BufTy).Contents (Elt Ideal))
    (x2 : (⟨S640x512, .f32⟩ : BufTy).Contents (Elt Ideal)) (x3 : (⟨S640, .f32⟩ : BufTy).Contents (Elt Ideal))
    (x4 : (⟨S640x512, .f32⟩ : BufTy).Contents (Elt Ideal)) (x5 : (⟨S640, .f32⟩ : BufTy).Contents (Elt Ideal))
    (x6 : (⟨S1024x640, .f32⟩ : BufTy).Contents (Elt Ideal)) (x7 : (⟨S1024, .f32⟩ : BufTy).Contents (Elt Ideal)) :
    val_main_v17 (F := Ideal) x0 x1 x2 x3 x4 x5 x6 x7 = Cert.Joiner.logits x0 x1 x2 x3 x4 x5 x6 x7 := by
  funext i
  obtain ⟨b, t, u, v, rfl⟩ : ∃ (b : Fin 4) (t : Fin 256) (u : Fin 64) (v : Fin 1024), i = ix4 b t u v :=
    ⟨i 0, i 1, i 2, i 3, eq_ix4 i⟩
  rw [val_main_v17_apply, val_main_v14_apply, val_main_v16_apply, val_main_v15_apply]
  simp only [val_main_v13_apply, val_main_v12_apply, val_main_v10_apply, val_main_v8_apply, val_main_v11_apply,
    val_main_v9_apply]
  rw [enc_stage, pred_stage]
  have he : ∀ k : Fin 640, idx_main_v8 (idx_main_v10 (lidx_main_v14 (ix4 b t u v) k)) = ix3 b t k := fun k =>
    funext fun a => Fin.ext (by match a with | ⟨0, _⟩ => rfl | ⟨1, _⟩ => rfl | ⟨2, _⟩ => rfl)
  have hp : ∀ k : Fin 640, idx_main_v9 (idx_main_v11 (lidx_main_v14 (ix4 b t u v) k)) = ix3 b u k := fun k =>
    funext fun a => Fin.ext (by match a with | ⟨0, _⟩ => rfl | ⟨1, _⟩ => rfl | ⟨2, _⟩ => rfl)
  have hw : ∀ k : Fin 640, ridx_main_v14 (ix4 b t u v) k = ix2 v k := fun k => funext fun a => Fin.ext (by
    match a with | ⟨0, _⟩ => rfl | ⟨1, _⟩ => rfl)
  have hb : idx_main_v15 (idx_main_v16 (ix4 b t u v)) = ix1 v := funext fun a => Fin.ext (by
    match a with | ⟨0, _⟩ => rfl)
  simp only [he, hp, hw, hb]
  rfl

end Cert.Joiner.Ref

end
-- ==== Proof.lean ====
/-
  The joiner kernel against its reference, on the extended reals.

  Both programs compute, for a batch entry b, a time step t, a label position u and a vocabulary entry v,
    logits[b,t,u,v] = Σ_j tanh (e[b,t,j] + p[b,u,j]) · out_w[v,j] + out_b[v],
  where e[b,t,j] = Σ_d enc[b,t,d] · enc_w[j,d] + enc_b[j] and p[b,u,j] = Σ_d pred[b,u,d] · pred_w[j,d] + pred_b[j].
  The reference does so with three contractions over whole arrays. The kernel transposes the three weight matrices on
  the host, computes e and p in two launches of one small projection kernel (one grid point per batch entry), and the
  logits in a third launch over tiles of 32 time steps, staging tanh (e_t + p_u) for all pairs (t, u) of the tile in a
  table before one product with the transposed vocabulary weights. At exact values the narrowing of operands before a
  product is the identity, a product into a zero accumulator is the plain sum of products, and the order in which a sum
  is taken does not matter, so the two results agree entry by entry, for all inputs: the equality uses only that a sum
  of products is taken over the same index set with the same factors, never a law that would need finite inputs.

  The modules: Spec (the function), RefValue (the reference computes it), ProjValue0 / ProjValue1 (the two projection
  launches), R2Pay / R2Body / R2Value (the third launch), RunValue (the program's run with its result named), Chain (the
  result read back through the segments to the arguments). The idealized program is the kernel's own text read at
  exact values (no operation was rewritten), so that claim is immediate.
-/
import proofs.«125526_j83863531421968_2_alg».proof.Defs
import proofs.«125526_j83863531421968_2_alg».proof.Proof.Gen.Kernel
import proofs.«125526_j83863531421968_2_alg».proof.Proof.Gen.Kernel.Skeleton
import proofs.«125526_j83863531421968_2_alg».proof.Proof.Gen.Kernel.Launch
import proofs.«125526_j83863531421968_2_alg».proof.Proof.Gen.Kernel.Points
import proofs.«125526_j83863531421968_2_alg».proof.Proof.Gen.Kernel.Frame
import proofs.«125526_j83863531421968_2_alg».proof.Proof.Gen.KernelIdeal
import proofs.«125526_j83863531421968_2_alg».proof.Proof.Gen.KernelIdeal.Skeleton
import proofs.«125526_j83863531421968_2_alg».proof.Proof.Gen.KernelIdeal.Launch
import proofs.«125526_j83863531421968_2_alg».proof.Proof.Gen.KernelIdeal.Points
import proofs.«125526_j83863531421968_2_alg».proof.Proof.Gen.KernelIdeal.Frame
import proofs.«125526_j83863531421968_2_alg».proof.Proof.Gen.ReferenceIdeal
import proofs.«125526_j83863531421968_2_alg».proof.Proof.Gen.Pre_finite_inputs
import proofs.«125526_j83863531421968_2_alg».proof.Proof.Gen.ReferenceIdeal.Run
import proofs.«125526_j83863531421968_2_alg».proof.Proof.Gen.ReferenceIdeal.Read
import proofs.«125526_j83863531421968_2_alg».proof.Proof.RunValue
import proofs.«125526_j83863531421968_2_alg».proof.Proof.Chain
import proofs.«125526_j83863531421968_2_alg».proof.Proof.RefValue
import Idealize.ShloMosaic.Adequacy
import Idealize.ShloMosaic.Init

noncomputable section

namespace Cert.Proof

open Idealize.ShloMosaic Idealize.SL.Sem Idealize.ShloMosaic.TcCoe

/-- The kernel program at exact values: every weakly fair execution terminates, nothing faulting, with the result array
    at the joiner's function of the arguments and the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v8)
        = Cert.Joiner.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run (Cert.KernelIdeal.defs (F := Ideal)) _ _).mono
    (fun r h c => ⟨(h c).1.trans (Cert.Joiner.Chain.result_eq m ρ c), (h c).2⟩)
    (Cert.Joiner.Run.run_named (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for reading at exact values. -/
theorem preserves : Cert.preserves_Kernel_KernelIdeal := trivial

/-- From memories that agree on the arguments both programs end with the joiner's function of those arguments in their
    result arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v17_eq _ _ _ _ _ _ _ _).trans (Cert.Joiner.Ref.result_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
